-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S2x640000 : Shape := ⟨2, ![2, 640000]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x16 .f32) (main_arg1 : FVec F S16x128 .f32) (main_arg2 : FVec F S128 .f32) (main_arg3 : FVec F S128x128 .f32) (main_arg4 : FVec F S128 .f32) (main_arg5 : IVec S2x640000 32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg1
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S2x640000 : Shape := ⟨2, ![2, 640000]⟩
abbrev S1x640000 : Shape := ⟨2, ![1, 640000]⟩
abbrev S640000 : Shape := ⟨1, ![640000]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x16 : Shape := ⟨2, ![740000, 16]⟩
abbrev S1x128 : Shape := ⟨2, ![1, 128]⟩
abbrev S100000x128 : Shape := ⟨2, ![100000, 128]⟩
abbrev S4000x16 : Shape := ⟨2, ![4000, 16]⟩
abbrev S4000x128 : Shape := ⟨2, ![4000, 128]⟩
abbrev S740000x128 : Shape := ⟨2, ![740000, 128]⟩

abbrev nBuf : Space → Nat
  | .hbm => 85
  | .vmem => 11
  | .smem => 0
  | _ => 0

abbrev bufTy : (tb : Table) → Fin (tcTables nBuf tb) → BufTy
  | .hbm, ⟨0, _⟩ => ⟨S100000x16, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x640000, .i32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S100000, .i32⟩
  | .hbm, ⟨11, _⟩ => ⟨S740000, .i32⟩
  | .hbm, ⟨12, _⟩ => ⟨S740000, .i32⟩
  | .hbm, ⟨13, _⟩ => ⟨S_, .f32⟩
  | .hbm, ⟨14, _⟩ => ⟨S740000, .f32⟩
  | .hbm, ⟨15, _⟩ => ⟨S_, .f32⟩
  | .hbm, ⟨16, _⟩ => ⟨S100000, .f32⟩
  | .hbm, ⟨17, _⟩ => ⟨S740000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S740000, .i32⟩
  | .hbm, ⟨29, _⟩ => ⟨S740000, .i1⟩
  | .hbm, ⟨30, _⟩ => ⟨S_, .i32⟩
  | .hbm, ⟨31, _⟩ => ⟨S740000, .i32⟩
  | .hbm, ⟨32, _⟩ => ⟨S740000, .i32⟩
  | .hbm, ⟨33, _⟩ => ⟨S740000, .i32⟩
  | .hbm, ⟨34, _⟩ => ⟨S740000x1, .i32⟩
  | .hbm, ⟨35, _⟩ => ⟨S740000, .f32⟩
  | .hbm, ⟨36, _⟩ => ⟨S_, .i32⟩
  | .hbm, ⟨37, _⟩ => ⟨S740000, .i32⟩
  | .hbm, ⟨38, _⟩ => ⟨S740000, .i1⟩
  | .hbm, ⟨39, _⟩ => ⟨S_, .i32⟩
  | .hbm, ⟨40, _⟩ => ⟨S740000, .i32⟩
  | .hbm, ⟨41, _⟩ => ⟨S740000, .i32⟩
  | .hbm, ⟨42, _⟩ => ⟨S740000, .i32⟩
  | .hbm, ⟨43, _⟩ => ⟨S740000x1, .i32⟩
  | .hbm, ⟨44, _⟩ => ⟨S740000, .f32⟩
  | .hbm, ⟨45, _⟩ => ⟨S740000, .f32⟩
  | .hbm, ⟨46, _⟩ => ⟨S_, .i32⟩
  | .hbm, ⟨47, _⟩ => ⟨S740000, .i32⟩
  | .hbm, ⟨48, _⟩ => ⟨S740000, .i1⟩
  | .hbm, ⟨49, _⟩ => ⟨S_, .i32⟩
  | .hbm, ⟨50, _⟩ => ⟨S740000, .i32⟩
  | .hbm, ⟨51, _⟩ => ⟨S740000, .i32⟩
  | .hbm, ⟨52, _⟩ => ⟨S740000, .i32⟩
  | .hbm, ⟨53, _⟩ => ⟨S740000x1, .i32⟩
  | .hbm, ⟨54, _⟩ => ⟨S740000x16, .f32⟩
  | .hbm, ⟨55, _⟩ => ⟨S740000x1, .f32⟩
  | .hbm, ⟨56, _⟩ => ⟨S740000x16, .f32⟩
  | .hbm, ⟨57, _⟩ => ⟨S740000x16, .f32⟩
  | .hbm, ⟨58, _⟩ => ⟨S_, .f32⟩
  | .hbm, ⟨59, _⟩ => ⟨S100000x16, .f32⟩
  | .hbm, ⟨60, _⟩ => ⟨S740000x1, .i32⟩
  | .hbm, ⟨61, _⟩ => ⟨S100000x16, .f32⟩
  | .hbm, ⟨62, _⟩ => ⟨S1x128, .f32⟩
  | .hbm, ⟨63, _⟩ => ⟨S100000x128, .f32⟩
  | .hbm, ⟨64, _⟩ => ⟨S100000x128, .bf16⟩
  | .hbm, ⟨65, _⟩ => ⟨S_, .i32⟩
  | .hbm, ⟨66, _⟩ => ⟨S740000, .i32⟩
  | .hbm, ⟨67, _⟩ => ⟨S740000, .i1⟩
  | .hbm, ⟨68, _⟩ => ⟨S_, .i32⟩
  | .hbm, ⟨69, _⟩ => ⟨S740000, .i32⟩
  | .hbm, ⟨70, _⟩ => ⟨S740000, .i32⟩
  | .hbm, ⟨71, _⟩ => ⟨S740000, .i32⟩
  | .hbm, ⟨72, _⟩ => ⟨S740000x1, .i32⟩
  | .hbm, ⟨73, _⟩ => ⟨S740000x128, .bf16⟩
  | .hbm, ⟨74, _⟩ => ⟨S740000x128, .f32⟩
  | .hbm, ⟨75, _⟩ => ⟨S740000x1, .f32⟩
  | .hbm, ⟨76, _⟩ => ⟨S740000x128, .f32⟩
  | .hbm, ⟨77, _⟩ => ⟨S740000x128, .f32⟩
  | .hbm, ⟨78, _⟩ => ⟨S_, .f32⟩
  | .hbm, ⟨79, _⟩ => ⟨S100000x128, .f32⟩
  | .hbm, ⟨80, _⟩ => ⟨S740000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | .local _ .vmem, ⟨0, _⟩ => ⟨S4000x16, .f32⟩
  | .local _ .vmem, ⟨1, _⟩ => ⟨S4000x16, .f32⟩
  | .local _ .vmem, ⟨2, _⟩ => ⟨S16x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S4000x128, .bf16⟩
  | .local _ .vmem, ⟨10, _⟩ => ⟨S4000x128, .bf16⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x16_0_1 : S740000x1.BroadcastsInDim S740000x16 (![0, 1] : Fin 2 → Fin S740000x16.rank)
  bcast_S_S100000x16 : S_.BroadcastsInDim S100000x16 (![] : Fin 0 → Fin S100000x16.rank)
  shapeCasts_S128_S1x128 : S128.ShapeCasts S1x128
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  packedbf16_S4000x128_S4000x128_0_0 : (Rect.unit (s := S4000x128) ![0, 0] S4000x128.size inb_S4000x128_S4000x128_0_0).PackedRows (EltTy.packing .bf16)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x16_S740000x1_S740000x16_1_0_n_n_0_1_116_wf : GatherDims.WF S100000x16 S740000x1 S740000x16 [1] [0] [] [0] [] 1 ![1, 16]
  scatter_S100000x16_S740000x1_S740000x16_1_0_0_1_wf : ScatterDims.WF S100000x16 S740000x1 S740000x16 [1] [0] [0] 1
  dot_S4000x16_S16x128_S4000x128_1_0_0_1_n_n_wf : DotDims.WF S4000x16 S16x128 S4000x128 [1] [0] [0] [1] [] []
  dot_S4000x128_S128x128_S4000x128_1_0_0_1_n_n_wf : DotDims.WF S4000x128 S128x128 S4000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x16.size a ≤ S100000x16.size a
  hwx0_0 : ∀ i : grid0.Coords, EltTy.bits .f32 = 32 ∨ (Rect.block (s := S100000x16) S4000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .bf16 = 32 ∨ (Rect.block (s := S100000x128) S4000x128.size (cc1_transform_2 i) (hinb1_2 i)).WholeWords (EltTy.packing .bf16)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x16_S740000x1_S740000x16_1_0_n_n_0_1_116 : GatherDims S100000x16 S740000x1 S740000x16 where
  offsetDims := [1]
  collapsedSliceDims := [0]
  operandBatchingDims := []
  startIndicesBatchingDims := []
  startIndexMap := [0]
  indexVectorDim := 1
  sliceSizes := ![1, 16]
  wf := gather_S100000x16_S740000x1_S740000x16_1_0_n_n_0_1_116_wf
def scatter_S100000x16_S740000x1_S740000x16_1_0_0_1 : ScatterDims S100000x16 S740000x1 S740000x16 where
  updateWindowDims := [1]
  insertedWindowDims := [0]
  scatterDimsToOperandDims := [0]
  indexVectorDim := 1
  wf := scatter_S100000x16_S740000x1_S740000x16_1_0_0_1_wf
def dot_S4000x16_S16x128_S4000x128_1_0_0_1_n_n : DotDims S4000x16 S16x128 S4000x128 where
  lhsContracting := [1]
  rhsContracting := [0]
  lhsNonContracting := [0]
  rhsNonContracting := [1]
  lhsBatch := []
  rhsBatch := []
  wf := dot_S4000x16_S16x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf

abbrev win0_0 : Pipeline.Window sig grid0 :=
  Pipeline.Window.ofSpec (Memref.whole main_v42) S4000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S4000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x16 : Shape := ⟨2, ![100000, 16]⟩
abbrev S16x128 : Shape := ⟨2, ![16, 128]⟩
abbrev S128 : Shape := ⟨1, ![128]⟩
abbrev S128x128 : Shape := ⟨2, ![128, 128]⟩
abbrev S2x640000 : Shape := ⟨2, ![2, 640000]⟩
abbrev S1x640000 : Shape := ⟨2, ![1, 640000]⟩
abbrev S640000 : Shape := ⟨1, ![640000]⟩
abbrev S100000x128 : Shape := ⟨2, ![100000, 128]⟩
abbrev S100000 : Shape := ⟨1, ![100000]⟩
abbrev S740000 : Shape := ⟨1, ![740000]⟩
abbrev S_ : Shape := ⟨0, ![]⟩
abbrev S740000x1 : Shape := ⟨2, ![740000, 1]⟩
abbrev S740000x128 : Shape := ⟨2, ![740000, 128]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S16x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S2x640000, .i32⟩
  | .hbm, ⟨6, _⟩ => ⟨S1x640000, .i32⟩
  | .hbm, ⟨7, _⟩ => ⟨S640000, .i32⟩
  | .hbm, ⟨8, _⟩ => ⟨S1x640000, .i32⟩
  | .hbm, ⟨9, _⟩ => ⟨S640000, .i32⟩
  | .hbm, ⟨10, _⟩ => ⟨S100000x128, .f32⟩
  | .hbm, ⟨11, _⟩ => ⟨S100000, .i32⟩
  | .hbm, ⟨12, _⟩ => ⟨S740000, .i32⟩
  | .hbm, ⟨13, _⟩ => ⟨S740000, .i32⟩
  | .hbm, ⟨14, _⟩ => ⟨S_, .f32⟩
  | .hbm, ⟨15, _⟩ => ⟨S740000, .f32⟩
  | .hbm, ⟨16, _⟩ => ⟨S_, .f32⟩
  | .hbm, ⟨17, _⟩ => ⟨S100000, .f32⟩
  | .hbm, ⟨18, _⟩ => ⟨S740000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S740000, .i32⟩
  | .hbm, ⟨30, _⟩ => ⟨S740000, .i1⟩
  | .hbm, ⟨31, _⟩ => ⟨S_, .i32⟩
  | .hbm, ⟨32, _⟩ => ⟨S740000, .i32⟩
  | .hbm, ⟨33, _⟩ => ⟨S740000, .i32⟩
  | .hbm, ⟨34, _⟩ => ⟨S740000, .i32⟩
  | .hbm, ⟨35, _⟩ => ⟨S740000x1, .i32⟩
  | .hbm, ⟨36, _⟩ => ⟨S740000, .f32⟩
  | .hbm, ⟨37, _⟩ => ⟨S_, .i32⟩
  | .hbm, ⟨38, _⟩ => ⟨S740000, .i32⟩
  | .hbm, ⟨39, _⟩ => ⟨S740000, .i1⟩
  | .hbm, ⟨40, _⟩ => ⟨S_, .i32⟩
  | .hbm, ⟨41, _⟩ => ⟨S740000, .i32⟩
  | .hbm, ⟨42, _⟩ => ⟨S740000, .i32⟩
  | .hbm, ⟨43, _⟩ => ⟨S740000, .i32⟩
  | .hbm, ⟨44, _⟩ => ⟨S740000x1, .i32⟩
  | .hbm, ⟨45, _⟩ => ⟨S740000, .f32⟩
  | .hbm, ⟨46, _⟩ => ⟨S740000, .f32⟩
  | .hbm, ⟨47, _⟩ => ⟨S_, .i32⟩
  | .hbm, ⟨48, _⟩ => ⟨S740000, .i32⟩
  | .hbm, ⟨49, _⟩ => ⟨S740000, .i1⟩
  | .hbm, ⟨50, _⟩ => ⟨S_, .i32⟩
  | .hbm, ⟨51, _⟩ => ⟨S740000, .i32⟩
  | .hbm, ⟨52, _⟩ => ⟨S740000, .i32⟩
  | .hbm, ⟨53, _⟩ => ⟨S740000, .i32⟩
  | .hbm, ⟨54, _⟩ => ⟨S740000x1, .i32⟩
  | .hbm, ⟨55, _⟩ => ⟨S740000x128, .f32⟩
  | .hbm, ⟨56, _⟩ => ⟨S740000x1, .f32⟩
  | .hbm, ⟨57, _⟩ => ⟨S740000x128, .f32⟩
  | .hbm, ⟨58, _⟩ => ⟨S740000x128, .f32⟩
  | .hbm, ⟨59, _⟩ => ⟨S_, .f32⟩
  | .hbm, ⟨60, _⟩ => ⟨S100000x128, .f32⟩
  | .hbm, ⟨61, _⟩ => ⟨S740000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S100000, .i32⟩
  | .hbm, ⟨71, _⟩ => ⟨S740000, .i32⟩
  | .hbm, ⟨72, _⟩ => ⟨S740000, .i32⟩
  | .hbm, ⟨73, _⟩ => ⟨S_, .f32⟩
  | .hbm, ⟨74, _⟩ => ⟨S740000, .f32⟩
  | .hbm, ⟨75, _⟩ => ⟨S_, .f32⟩
  | .hbm, ⟨76, _⟩ => ⟨S100000, .f32⟩
  | .hbm, ⟨77, _⟩ => ⟨S740000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S740000, .i32⟩
  | .hbm, ⟨89, _⟩ => ⟨S740000, .i1⟩
  | .hbm, ⟨90, _⟩ => ⟨S_, .i32⟩
  | .hbm, ⟨91, _⟩ => ⟨S740000, .i32⟩
  | .hbm, ⟨92, _⟩ => ⟨S740000, .i32⟩
  | .hbm, ⟨93, _⟩ => ⟨S740000, .i32⟩
  | .hbm, ⟨94, _⟩ => ⟨S740000x1, .i32⟩
  | .hbm, ⟨95, _⟩ => ⟨S740000, .f32⟩
  | .hbm, ⟨96, _⟩ => ⟨S_, .i32⟩
  | .hbm, ⟨97, _⟩ => ⟨S740000, .i32⟩
  | .hbm, ⟨98, _⟩ => ⟨S740000, .i1⟩
  | .hbm, ⟨99, _⟩ => ⟨S_, .i32⟩
  | .hbm, ⟨100, _⟩ => ⟨S740000, .i32⟩
  | .hbm, ⟨101, _⟩ => ⟨S740000, .i32⟩
  | .hbm, ⟨102, _⟩ => ⟨S740000, .i32⟩
  | .hbm, ⟨103, _⟩ => ⟨S740000x1, .i32⟩
  | .hbm, ⟨104, _⟩ => ⟨S740000, .f32⟩
  | .hbm, ⟨105, _⟩ => ⟨S740000, .f32⟩
  | .hbm, ⟨106, _⟩ => ⟨S_, .i32⟩
  | .hbm, ⟨107, _⟩ => ⟨S740000, .i32⟩
  | .hbm, ⟨108, _⟩ => ⟨S740000, .i1⟩
  | .hbm, ⟨109, _⟩ => ⟨S_, .i32⟩
  | .hbm, ⟨110, _⟩ => ⟨S740000, .i32⟩
  | .hbm, ⟨111, _⟩ => ⟨S740000, .i32⟩
  | .hbm, ⟨112, _⟩ => ⟨S740000, .i32⟩
  | .hbm, ⟨113, _⟩ => ⟨S740000x1, .i32⟩
  | .hbm, ⟨114, _⟩ => ⟨S740000x128, .f32⟩
  | .hbm, ⟨115, _⟩ => ⟨S740000x1, .f32⟩
  | .hbm, ⟨116, _⟩ => ⟨S740000x128, .f32⟩
  | .hbm, ⟨117, _⟩ => ⟨S740000x128, .f32⟩
  | .hbm, ⟨118, _⟩ => ⟨S_, .f32⟩
  | .hbm, ⟨119, _⟩ => ⟨S100000x128, .f32⟩
  | .hbm, ⟨120, _⟩ => ⟨S740000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S100000_S740000_d0 : Shape.Concatenates [S640000, S100000] S740000 0
  bcast_S_S740000 : S_.BroadcastsInDim S740000 (![] : Fin 0 → Fin S740000.rank)
  bcast_S_S100000 : S_.BroadcastsInDim S100000 (![] : Fin 0 → Fin S100000.rank)
  bcast_S740000_S740000x1_0 : S740000.BroadcastsInDim S740000x1 (![0] : Fin 1 → Fin S740000x1.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x16_S16x128_S100000x128_1_0_0_1_n_n_wf : DotDims.WF S100000x16 S16x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x128_S100000x128_1_0_0_1_n_n_wf : DotDims.WF S100000x128 S128x128 S100000x128 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel's run with its result named.

  @main is three stretches of host operations, two kernel regions and a last stretch of host operations. Every weakly
  fair execution from any memory terminates, nothing faulting, with the argument arrays as launched and the result
  array at the contents the last segment boundary assigns to it: the fold of the host operations and of the two
  regions' write-backs from the launch memory (`Gen.W6`). The launch over the six segments is the one that proves the
  frame; its last thread state holds EVERY unscoped buffer at the last boundary's contents, so the result buffer is
  read against the final state exactly as each argument is.
-/
import proofs.«109106_j42442866819845_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN: every weakly fair execution of @main terminates with the result array at the last boundary's contents and
    the six argument arrays as launched. -/
theorem run_value : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.Terms.lean ====
/-
  The pieces of a two-layer graph convolution with self-loops and symmetric degree normalisation, named once.

  An edge list `ei` of shape 2×640000 (row 0: destinations, row 1: sources) is extended by one self-loop per node:
  `dst ei`, `src ei` are the two rows followed by 0, 1, …, 99999 (740000 entries). A node's degree counts the
  extended edges whose source it is (a scatter-add of ones into zeros); `invSqrtDegree` is degree^(-1/2) where the
  degree is positive and 0 elsewhere; the weight of edge e is invSqrtDegree(dst e) · invSqrtDegree(src e), with a
  negative index first wrapped by +100000 as array indexing does. `aggregate h` sends a table `h` of node rows to
  the table whose row n is the sum, over the edges e whose destination is n, of weight(e) · (row src(e) of h).
  The reference computes  aggregate (relu (aggregate (x·W1) + b1) · W2) + b2 ; the kernel computes
  aggregate ((relu ((aggregate x)·W1 + b1)) · W2) + b2  with its two matrix products done in row blocks.
  Every definition is the composed term of the host operations that compute it, for any float instance.
-/
import proofs.«109106_j42442866819845_2_alg».proof.Proof.Gen.KernelIdeal
import proofs.«109106_j42442866819845_2_alg».proof.Proof.Gen.ReferenceIdeal

noncomputable section

namespace Cert.KernelIdeal.Terms

open Cert.KernelIdeal Idealize.ShloMosaic
open Cert.KernelIdeal.Facts₀ Cert.KernelIdeal.Facts

variable {F : FTy → Type} [FloatOps F]

/-- Destinations: row 0 of the edge list, then one self-loop per node. -/
def dst (ei : IVec S2x640000 32) : IVec S740000 32 :=
  concatenate S740000 0 [⟨S640000, (shapeCast _ (extractStridedSlice S1x640000 ![0, 0] ei slices_S2x640000_S1x640000_0_0) shapeCasts_S1x640000_S640000)⟩, ⟨S100000, (iotaInDim S100000 32 0)⟩] concatenates_S640000_S100000_S740000_d0

/-- Sources: row 1 of the edge list, then one self-loop per node. -/
def src (ei : IVec S2x640000 32) : IVec S740000 32 :=
  concatenate S740000 0 [⟨S640000, (shapeCast _ (extractStridedSlice S1x640000 ![1, 0] ei slices_S2x640000_S1x640000_1_0) shapeCasts_S1x640000_S640000)⟩, ⟨S100000, (iotaInDim S100000 32 0)⟩] concatenates_S640000_S100000_S740000_d0

/-- An index vector as a 740000×1 column (what a scatter takes). -/
def column (v : IVec S740000 32) : IVec S740000x1 32 :=
  broadcastInDim S740000x1 ![0] bcast_S740000_S740000x1_0 v

/-- An index vector with its negative entries moved up by 100000, as a column (what a gather takes). -/
def wrapped (v : IVec S740000 32) : IVec S740000x1 32 :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)

/-- The number of extended edges out of each node. -/
def degree (ei : IVec S2x640000 32) : FVec F S100000 .f32 :=
  Host.scatterAdd scatter_S100000_S740000x1_S740000_n_0_0_1
    (broadcastInDim S100000 ![] bcast_S_S100000 (constant S_ .f32 0x00000000#32))
    (column (src ei))
    (broadcastInDim S740000 ![] bcast_S_S740000 (constant S_ .f32 0x3F800000#32))

/-- degree^(-1/2) where the degree is positive, zero elsewhere. -/
def invSqrtDegree (ei : IVec S2x640000 32) : FVec F S100000 .f32 :=
  select (cmpf (F := F) .ogt (degree ei) (broadcastInDim S100000 ![] bcast_S_S100000 (constant S_ .f32 0x00000000#32)))
    (Host.rsqrt (degree ei))
    (broadcastInDim S100000 ![] bcast_S_S100000 (id (constant S_ .f32 0x00000000#32)))

/-- The weight of each extended edge. -/
def norm (ei : IVec S2x640000 32) : FVec F S740000 .f32 :=
  mulf (Host.gather gather_S100000_S740000x1_S740000_n_0_n_n_0_1_1 (invSqrtDegree ei) (wrapped (dst ei)))
    (Host.gather gather_S100000_S740000x1_S740000_n_0_n_n_0_1_1 (invSqrtDegree ei) (wrapped (src ei)))

/-- The edge weights repeated along 128 columns. -/
def normCols128 (ei : IVec S2x640000 32) : FVec F S740000x128 .f32 :=
  broadcastInDim S740000x128 ![0, 1] bcast_S740000x1_S740000x128_0_1
    (broadcastInDim S740000x1 ![0] bcast_S740000_S740000x1_0 (norm ei))

/-- The edge weights repeated along 16 columns. -/
def normCols16 (ei : IVec S2x640000 32) : FVec F S740000x16 .f32 :=
  broadcastInDim S740000x16 ![0, 1] bcast_S740000x1_S740000x16_0_1
    (broadcastInDim S740000x1 ![0] bcast_S740000_S740000x1_0 (norm ei))

/-- The weighted rows of a 128-wide table, one per extended edge: weight(e) times row src(e). -/
def messages128 (h : FVec F S100000x128 .f32) (ei : IVec S2x640000 32) : FVec F S740000x128 .f32 :=
  mulf (Host.gather gather_S100000x128_S740000x1_S740000x128_1_0_n_n_0_1_1128 h (wrapped (src ei))) (normCols128 ei)

/-- Row n of the result: the sum of the given per-edge rows over the edges whose destination is n (from zero). -/
def scatterRows128 (msg : FVec F S740000x128 .f32) (ei : IVec S2x640000 32) : FVec F S100000x128 .f32 :=
  Host.scatterAdd scatter_S100000x128_S740000x1_S740000x128_1_0_0_1
    (broadcastInDim S100000x128 ![] bcast_S_S100000x128 (constant S_ .f32 0x00000000#32)) (column (dst ei)) msg

/-- The aggregation of a 128-wide table over the extended edges. -/
def aggregate128 (h : FVec F S100000x128 .f32) (ei : IVec S2x640000 32) : FVec F S100000x128 .f32 :=
  scatterRows128 (messages128 h ei) ei

/-- The aggregation of a 16-wide table over the extended edges. -/
def aggregate16 (h : FVec F S100000x16 .f32) (ei : IVec S2x640000 32) : FVec F S100000x16 .f32 :=
  Host.scatterAdd scatter_S100000x16_S740000x1_S740000x16_1_0_0_1
    (broadcastInDim S100000x16 ![] bcast_S_S100000x16 (constant S_ .f32 0x00000000#32)) (column (dst ei))
    (mulf (Host.gather gather_S100000x16_S740000x1_S740000x16_1_0_n_n_0_1_116 h (wrapped (src ei))) (normCols16 ei))

/-- A length-128 bias added to every one of 100000 rows. -/
def biasRows (b : FVec F S128 .f32) : FVec F S100000x128 .f32 :=
  broadcastInDim S100000x128 ![0, 1] bcast_S1x128_S100000x128_0_1 (broadcastInDim S1x128 ![1] bcast_S128_S1x128_1 b)

/-- The kernel's closing host operations on its second matrix product `h2` (kept in bf16, widened after the gather). -/
def kernelTail (h2 : FVec F S100000x128 .bf16) (b2 : FVec F S128 .f32) (ei : IVec S2x640000 32) : FVec F S100000x128 .f32 :=
  addf (scatterRows128 (mulf (extf .f32 (Host.gather gather_S100000x128_S740000x1_S740000x128_1_0_n_n_0_1_1128 h2 (wrapped (src ei))) bitsLt_bf16_f32) (normCols128 ei)) ei)
    (biasRows b2)

/-- One layer of the reference after its matrix product: aggregate, then add the bias. -/
def refLayer (h : FVec F S100000x128 .f32) (b : FVec F S128 .f32) (ei : IVec S2x640000 32) : FVec F S100000x128 .f32 :=
  addf (aggregate128 h ei) (biasRows b)

/-- The reference's first layer with its clip at zero. -/
def refHidden (x : FVec F S100000x16 .f32) (w1 : FVec F S16x128 .f32) (b1 : FVec F S128 .f32) (ei : IVec S2x640000 32) :
    FVec F S100000x128 .f32 :=
  maximumf (refLayer (Host.dotGeneral Cert.ReferenceIdeal.dot_S100000x16_S16x128_S100000x128_1_0_0_1_n_n none x w1) b1 ei)
    (broadcastInDim S100000x128 ![] bcast_S_S100000x128 (constant S_ .f32 0x00000000#32))

/-- The reference's result. -/
def refOut (x : FVec F S100000x16 .f32) (w1 : FVec F S16x128 .f32) (b1 : FVec F S128 .f32) (w2 : FVec F S128x128 .f32)
    (b2 : FVec F S128 .f32) (ei : IVec S2x640000 32) : FVec F S100000x128 .f32 :=
  refLayer (Host.dotGeneral Cert.ReferenceIdeal.dot_S100000x128_S128x128_S100000x128_1_0_0_1_n_n none (refHidden x w1 b1 ei) w2) b2 ei

end Cert.KernelIdeal.Terms

end
-- ==== Proof.KernelHost.lean ====
/-
  The buffers the kernel's first region finds, as functions of the launch memory.

  Before its first kernel region @main runs three stretches of host operations. Read back through them one stretch at
  a time, from the launch memory `m`: the destination and source index vectors with their self-loops; the comparison
  "degree > 0" and the reciprocal root of the degree, then the vector degree^(-1/2); then the edge weights, the 16-wide
  input table aggregated over the extended edges (the first region's row-blocked operand) and the bias as a 1×128 row.
  Each is the composed term of the operations that wrote it (`Terms`), with nothing evaluated: a later stretch is read
  over the earlier boundary's contents as a variable.
-/
import proofs.«109106_j42442866819845_2_alg».proof.Proof.Gen.KernelIdeal.Frame
import proofs.«109106_j42442866819845_2_alg».proof.Proof.Terms

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch -/

theorem W1_dst (c : Dev nD) :
    W1 m ρ c (Proc.devRef .tc main_v5) = Terms.dst (m ((c : Thread nD τ).loc main_arg5)) := by
  show StableHlo.after hostOps0 (W0 m ρ c) (Proc.devRef .tc main_v5) = _
  after_results
  rfl

theorem W1_src (c : Dev nD) :
    W1 m ρ c (Proc.devRef .tc main_v6) = Terms.src (m ((c : Thread nD τ).loc main_arg5)) := by
  show StableHlo.after hostOps0 (W0 m ρ c) (Proc.devRef .tc main_v6) = _
  after_results
  rfl

/-- The mask "degree > 0". -/
theorem W1_mask (c : Dev nD) :
    W1 m ρ c (Proc.devRef .tc main_v12)
      = cmpf (F := F) .ogt (Terms.degree (m ((c : Thread nD τ).loc main_arg5)))
          (broadcastInDim S100000 ![] Facts₀.bcast_S_S100000 (constant S_ .f32 0x00000000#32)) := by
  show StableHlo.after hostOps0 (W0 m ρ c) (Proc.devRef .tc main_v12) = _
  after_results
  rfl

/-- The reciprocal root of the degree. -/
theorem W1_rsqrt (c : Dev nD) :
    W1 m ρ c (Proc.devRef .tc main_v13) = Host.rsqrt (Terms.degree (F := F) (m ((c : Thread nD τ).loc main_arg5))) := by
  show StableHlo.after hostOps0 (W0 m ρ c) (Proc.devRef .tc main_v13) = _
  after_results
  rfl

theorem W1_zero (c : Dev nD) :
    W1 m ρ c (Proc.devRef .tc main_cst_2) = constant (F := F) S_ .f32 0x00000000#32 := by
  show StableHlo.after hostOps0 (W0 m ρ c) (Proc.devRef .tc main_cst_2) = _
  after_results

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

/-! ## After the second stretch (the outlined select) -/

/-- degree^(-1/2), zero where the degree is not positive. -/
theorem W2_invSqrtDegree (c : Dev nD) :
    W2 m ρ c (Proc.devRef .tc main_v14) = Terms.invSqrtDegree (F := F) (m ((c : Thread nD τ).loc main_arg5)) := by
  have h12 := W1_mask m ρ c
  have h13 := W1_rsqrt m ρ c
  have h0 := W1_zero m ρ c
  show StableHlo.after hostOps0_1 (W1 m ρ c) (Proc.devRef .tc main_v14) = _
  generalize W1 m ρ c = V1 at h12 h13 h0 ⊢
  after_results
  rw [h12, h13, h0]
  rfl

theorem W2_dst (c : Dev nD) :
    W2 m ρ c (Proc.devRef .tc main_v5) = Terms.dst (m ((c : Thread nD τ).loc main_arg5)) := by
  have h := W1_dst m ρ c
  show StableHlo.after hostOps0_1 (W1 m ρ c) (Proc.devRef .tc main_v5) = _
  generalize W1 m ρ c = V1 at h ⊢
  after_results
  exact h

theorem W2_src (c : Dev nD) :
    W2 m ρ c (Proc.devRef .tc main_v6) = Terms.src (m ((c : Thread nD τ).loc main_arg5)) := by
  have h := W1_src m ρ c
  show StableHlo.after hostOps0_1 (W1 m ρ c) (Proc.devRef .tc main_v6) = _
  generalize W1 m ρ c = V1 at h ⊢
  after_results
  exact h

theorem W2_arg0 (c : Dev nD) : W2 m ρ c (Proc.devRef .tc main_arg0) = m ((c : Thread nD τ).loc main_arg0) := by
  have h := W1_arg0 m ρ c
  show StableHlo.after hostOps0_1 (W1 m ρ c) (Proc.devRef .tc main_arg0) = _
  generalize W1 m ρ c = V1 at h ⊢
  after_results
  exact h

theorem W2_arg2 (c : Dev nD) : W2 m ρ c (Proc.devRef .tc main_arg2) = m ((c : Thread nD τ).loc main_arg2) := by
  have h := W1_arg2 m ρ c
  show StableHlo.after hostOps0_1 (W1 m ρ c) (Proc.devRef .tc main_arg2) = _
  generalize W1 m ρ c = V1 at h ⊢
  after_results
  exact h

/-! ## After the third stretch: the first region's entry -/

theorem W3_dst (c : Dev nD) :
    W3 m ρ c (Proc.devRef .tc main_v5) = Terms.dst (m ((c : Thread nD τ).loc main_arg5)) := by
  have h := W2_dst m ρ c
  show StableHlo.after hostOps0_2 (W2 m ρ c) (Proc.devRef .tc main_v5) = _
  generalize W2 m ρ c = V2 at h ⊢
  after_results_simp
  exact h

theorem W3_src (c : Dev nD) :
    W3 m ρ c (Proc.devRef .tc main_v6) = Terms.src (m ((c : Thread nD τ).loc main_arg5)) := by
  have h := W2_src m ρ c
  show StableHlo.after hostOps0_2 (W2 m ρ c) (Proc.devRef .tc main_v6) = _
  generalize W2 m ρ c = V2 at h ⊢
  after_results_simp
  exact h

/-- The edge weights. -/
theorem W3_norm (c : Dev nD) :
    W3 m ρ c (Proc.devRef .tc main_v29) = Terms.norm (F := F) (m ((c : Thread nD τ).loc main_arg5)) := by
  have h14 := W2_invSqrtDegree m ρ c
  have h5 := W2_dst m ρ c
  have h6 := W2_src m ρ c
  show StableHlo.after hostOps0_2 (W2 m ρ c) (Proc.devRef .tc main_v29) = _
  generalize W2 m ρ c = V2 at h14 h5 h6 ⊢
  after_results_simp
  rw [h14, h5, h6]
  rfl

/-- The 16-wide input table aggregated over the extended edges. -/
theorem W3_aggregate (c : Dev nD) :
    W3 m ρ c (Proc.devRef .tc main_v42)
      = Terms.aggregate16 (m ((c : Thread nD τ).loc main_arg0)) (m ((c : Thread nD τ).loc main_arg5)) := by
  have h14 := W2_invSqrtDegree m ρ c
  have h5 := W2_dst m ρ c
  have h6 := W2_src m ρ c
  have ha := W2_arg0 m ρ c
  show StableHlo.after hostOps0_2 (W2 m ρ c) (Proc.devRef .tc main_v42) = _
  generalize W2 m ρ c = V2 at h14 h5 h6 ha ⊢
  after_results_simp
  rw [h14, h5, h6, ha]
  rfl

/-- The first bias as a 1×128 row. -/
theorem W3_biasRow (c : Dev nD) :
    W3 m ρ c (Proc.devRef .tc main_v43)
      = (shapeCast S1x128 (m ((c : Thread nD τ).loc main_arg2)) Facts₀.shapeCasts_S128_S1x128 : FVec F S1x128 .f32) := by
  have ha := W2_arg2 m ρ c
  show StableHlo.after hostOps0_2 (W2 m ρ c) (Proc.devRef .tc main_v43) = _
  generalize W2 m ρ c = V2 at ha ⊢
  after_results_simp
  rw [ha]
  rfl

/-! ## The arguments the regions and the last stretch still read are as launched -/

theorem W3_arg1 (c : Dev nD) : W3 m ρ c (Proc.devRef .tc main_arg1) = m ((c : Thread nD τ).loc main_arg1) := by
  have h1 : W1 m ρ c (Proc.devRef .tc main_arg1) = m ((c : Thread nD τ).loc main_arg1) := by
    show StableHlo.after hostOps0 (W0 m ρ c) (Proc.devRef .tc main_arg1) = _
    after_results
  have h2 : W2 m ρ c (Proc.devRef .tc main_arg1) = m ((c : Thread nD τ).loc main_arg1) := by
    show StableHlo.after hostOps0_1 (W1 m ρ c) (Proc.devRef .tc main_arg1) = _
    generalize W1 m ρ c = V1 at h1 ⊢
    after_results
    exact h1
  show StableHlo.after hostOps0_2 (W2 m ρ c) (Proc.devRef .tc main_arg1) = _
  generalize W2 m ρ c = V2 at h2 ⊢
  after_results_simp
  exact h2

theorem W3_arg3 (c : Dev nD) : W3 m ρ c (Proc.devRef .tc main_arg3) = m ((c : Thread nD τ).loc main_arg3) := by
  have h1 : W1 m ρ c (Proc.devRef .tc main_arg3) = m ((c : Thread nD τ).loc main_arg3) := by
    show StableHlo.after hostOps0 (W0 m ρ c) (Proc.devRef .tc main_arg3) = _
    after_results
  have h2 : W2 m ρ c (Proc.devRef .tc main_arg3) = m ((c : Thread nD τ).loc main_arg3) := by
    show StableHlo.after hostOps0_1 (W1 m ρ c) (Proc.devRef .tc main_arg3) = _
    generalize W1 m ρ c = V1 at h1 ⊢
    after_results
    exact h1
  show StableHlo.after hostOps0_2 (W2 m ρ c) (Proc.devRef .tc main_arg3) = _
  generalize W2 m ρ c = V2 at h2 ⊢
  after_results_simp
  exact h2

theorem W3_arg4 (c : Dev nD) : W3 m ρ c (Proc.devRef .tc main_arg4) = m ((c : Thread nD τ).loc main_arg4) := by
  have h1 : W1 m ρ c (Proc.devRef .tc main_arg4) = m ((c : Thread nD τ).loc main_arg4) := by
    show StableHlo.after hostOps0 (W0 m ρ c) (Proc.devRef .tc main_arg4) = _
    after_results
  have h2 : W2 m ρ c (Proc.devRef .tc main_arg4) = m ((c : Thread nD τ).loc main_arg4) := by
    show StableHlo.after hostOps0_1 (W1 m ρ c) (Proc.devRef .tc main_arg4) = _
    generalize W1 m ρ c = V1 at h1 ⊢
    after_results
    exact h1
  show StableHlo.after hostOps0_2 (W2 m ρ c) (Proc.devRef .tc main_arg4) = _
  generalize W2 m ρ c = V2 at h2 ⊢
  after_results_simp
  exact h2

end Cert.KernelIdeal.HostValue

end
-- ==== Proof.Dense.lean ====
/-
  The two dense maps of a two-layer graph convolution, as whole-array functions over the extended reals.

  `denseRelu x w b` : entry (p, n) is max (Σ_k x(p,k)·w(k,n) + b(0,n)) 0 — a 100000×16 matrix times a 16×128 matrix,
  a 1×128 bias row added to every row, clipped below at zero (the zero kept as the f32 pattern 0x00000000).
  `dense x w` : entry (p, n) is Σ_k x(p,k)·w(k,n) — a 100000×128 matrix times a 128×128 matrix.
  Row p of either result depends on row p of x only, which is what lets a row-blocked computation be read as one map.
-/
import Idealize.ShloMosaic.Lib.ValueIdx
import Idealize.ShloMosaic.PureOps.Ideal

noncomputable section

open scoped BigOperators

namespace Cert.Gcn

open Idealize.ShloMosaic Idealize.ShloMosaic.ValueIdx

/-- Entry (p, n) of relu (x·w + b). -/
def denseReluAt (x : FVec Ideal ⟨2, ![100000, 16]⟩ .f32) (w : FVec Ideal ⟨2, ![16, 128]⟩ .f32)
    (b : FVec Ideal ⟨2, ![1, 128]⟩ .f32) (p : Fin 100000) (n : Fin 128) : EReal :=
  max ((∑ k : Fin 16, x (ix2 p k) * w (ix2 k n)) + b (ix2 (0 : Fin 1) n)) (Ideal.ofBits .f32 0x00000000#32)

/-- relu (x·w + b) as one array. -/
def denseRelu (x : FVec Ideal ⟨2, ![100000, 16]⟩ .f32) (w : FVec Ideal ⟨2, ![16, 128]⟩ .f32)
    (b : FVec Ideal ⟨2, ![1, 128]⟩ .f32) : FVec Ideal ⟨2, ![100000, 128]⟩ .f32 :=
  fun i => denseReluAt x w b (i 0) (i 1)

theorem denseRelu_apply (x : FVec Ideal ⟨2, ![100000, 16]⟩ .f32) (w : FVec Ideal ⟨2, ![16, 128]⟩ .f32)
    (b : FVec Ideal ⟨2, ![1, 128]⟩ .f32) (p : Fin 100000) (n : Fin 128) :
    denseRelu x w b (ix2 p n) = denseReluAt x w b p n := rfl

/-- Entry (p, n) of x·w. -/
def denseAt (x : FVec Ideal ⟨2, ![100000, 128]⟩ .f32) (w : FVec Ideal ⟨2, ![128, 128]⟩ .f32)
    (p : Fin 100000) (n : Fin 128) : EReal :=
  ∑ k : Fin 128, x (ix2 p k) * w (ix2 k n)

/-- x·w as one array; the element format of the result is free (a change of format is the identity here). -/
def dense {φ : FTy} (x : FVec Ideal ⟨2, ![100000, 128]⟩ .f32) (w : FVec Ideal ⟨2, ![128, 128]⟩ .f32) :
    FVec Ideal ⟨2, ![100000, 128]⟩ φ :=
  fun i => denseAt x w (i 0) (i 1)

theorem dense_apply {φ : FTy} (x : FVec Ideal ⟨2, ![100000, 128]⟩ .f32) (w : FVec Ideal ⟨2, ![128, 128]⟩ .f32)
    (p : Fin 100000) (n : Fin 128) : dense (φ := φ) x w (ix2 p n) = denseAt x w p n := rfl

end Cert.Gcn

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.Region0.lean ====
/-
  The first region's result array as one function of the arrays the region finds, over the extended reals.

  The region walks 25 points; at point t it reads rows 4000·t … 4000·t + 3999 of a 100000×16 matrix x, the whole
  16×128 matrix w and the whole 1×128 row b, and stores the whole 4000×128 block
  max (x_block · w + b, 0), which is written back as rows 4000·t … 4000·t + 3999 of the 100000×128 result.
  Entry (p, n) of that block depends on row p of the x block only, and that row is row 4000·t + p of x; so every block
  written back is the corresponding block of the single array relu (x·w + b). The 25 row blocks tile the 100000 rows
  (row r lies in the block of point r / 4000), hence after the region the result array is relu (x·w + b) everywhere.
-/
import proofs.«109106_j42442866819845_2_alg».proof.Proof.Gen.KernelIdeal.Frame
import proofs.«109106_j42442866819845_2_alg».proof.Proof.Dense
import proofs.«109106_j42442866819845_2_alg».proof.Proof.LibPlainMatmul
import Idealize.ShloMosaic.Lib.Pipeline.Value
import Idealize.ShloMosaic.Lib.ValueLayout

noncomputable section

open scoped BigOperators

namespace Cert.KernelIdeal.RegionValue

open Cert.KernelIdeal Idealize.ShloMosaic Idealize.ShloMosaic.ValueIdx Idealize.ShloMosaic.TcCoe Idealize.SL.Sem
open Idealize.ShloMosaic.Pipeline (Dat)

/-- The first region's stored value at entry (p, n) of a block: the row of the left block times the column of the
    weights, plus the bias entry of that column, clipped below at zero. -/
theorem pay0_apply (x0 : FVec Ideal ⟨2, ![4000, 16]⟩ .f32) (x1 : FVec Ideal ⟨2, ![16, 128]⟩ .f32)
    (x2 : FVec Ideal ⟨2, ![1, 128]⟩ .f32) (p : Fin 4000) (n : Fin 128) :
    Gen.k0_pay1 (F := Ideal) x0 x1 x2 (ix2 p n)
      = max ((∑ k : Fin 16, x0 (ix2 p k) * x1 (ix2 k n)) + x2 (ix2 (0 : Fin 1) n)) (Ideal.ofBits .f32 0x00000000#32) := by
  unfold Gen.k0_pay1
  rw [maximumf_apply, addf_apply, broadcast_apply]
  refine congrArg₂ max (congrArg₂ (· + ·) ?_ ?_) rfl
  · refine (Cert.LibPlainMatmul.matmul_eq_plain_zero_apply
      dot_S4000x16_S16x128_S4000x128_1_0_0_1_n_n rfl none _ _ p n).trans ?_
    refine Finset.sum_congr rfl fun k _ => ?_
    rw [truncf_apply, truncf_apply, shapeCast_self]
  · refine (broadcastTo_1b_ab_apply _ Gen.broadcasts_S1x128_S4000x128 p n).trans ?_
    rw [shapeCast_self, shapeCast_self]

variable (V : (c : Dev nD) → (b : Ref sig .tc) → Buf (Elt Ideal) ((c : Thread nD τ).loc b))

theorem zero_offsets0 : (![0, 0] : Fin 2 → Nat) = fun _ => 0 := funext fun a => by fin_cases a <;> rfl

/-- The printed index maps over the grid: at point t the left operand's and the result's row block is block t,
    the weights and the bias row are fetched whole. -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block's stored value at (p, n) is the dense map of the whole arrays at (r, n), when the left block's row p is
    row r of the left array and the other two blocks are their arrays. -/
theorem block_value0 (A0 : FVec Ideal ⟨2, ![100000, 16]⟩ .f32) (A1 : FVec Ideal ⟨2, ![16, 128]⟩ .f32)
    (A2 : FVec Ideal ⟨2, ![1, 128]⟩ .f32) (B0 : FVec Ideal ⟨2, ![4000, 16]⟩ .f32) (B1 : FVec Ideal ⟨2, ![16, 128]⟩ .f32)
    (B2 : FVec Ideal ⟨2, ![1, 128]⟩ .f32) (p : Fin 4000) (n : Fin 128) (r : Fin 100000)
    (h0 : ∀ k : Fin 16, B0 (ix2 p k) = A0 (ix2 r k)) (h1 : B1 = A1) (h2 : B2 = A2) :
    Gen.k0_pay1 (F := Ideal) B0 B1 B2 (ix2 p n) = Cert.Gcn.denseRelu A0 A1 A2 (ix2 r n) := by
  subst h1 h2
  rw [pay0_apply, Cert.Gcn.denseRelu_apply]
  unfold Cert.Gcn.denseReluAt
  simp only [h0]

/-- Row p of the left operand's block at point t is row 4000·t + p of the array. -/
theorem left_block0 (c : Dev nD) (t : Fin cfg0.N) (p : Fin 4000) (k : Fin 16) (r : Fin 100000)
    (hr : r.val = 4000 * t.val + p.val) :
    (Gen.iblk0 V c 0 t : FVec Ideal ⟨2, ![4000, 16]⟩ .f32) (ix2 p k)
      = (V c (Pipeline.arrRef spec0 0) : FVec Ideal ⟨2, ![100000, 16]⟩ .f32) (ix2 r k) := by
  obtain ⟨e00, e01, -⟩ := index_maps0 t
  unfold Gen.iblk0
  rw [View.read_apply]
  show V c main_v42 (((cfg0.win 0).blk t).view.emb (ix2 p k)) = V c main_v42 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 16 + 1 * k.val = k.val; omega

/-- The weights' block at any point is the whole array. -/
theorem weights_block0 (c : Dev nD) (t : Fin cfg0.N) :
    (Gen.iblk0 V c 1 t : FVec Ideal ⟨2, ![16, 128]⟩ .f32) = V c (Pipeline.arrRef spec0 1) := by
  obtain ⟨-, -, e10, e11, -⟩ := index_maps0 t
  unfold Gen.iblk0
  funext y
  rw [View.read_apply]
  show V c main_arg1 (((cfg0.win 1).blk t).view.emb y) = V c main_arg1 y
  refine congrArg _ (funext fun a => Fin.ext ?_)
  match a with
  | ⟨0, _⟩ => show win0_1.index t (0 : Fin 2) * 16 + 1 * (y 0).val = (y 0).val; omega
  | ⟨1, _⟩ => show win0_1.index t (1 : Fin 2) * 128 + 1 * (y 1).val = (y 1).val; omega

/-- The bias row's block at any point is the whole array. -/
theorem bias_block0 (c : Dev nD) (t : Fin cfg0.N) :
    (Gen.iblk0 V c 2 t : FVec Ideal ⟨2, ![1, 128]⟩ .f32) = V c (Pipeline.arrRef spec0 2) := by
  obtain ⟨-, -, -, -, e20, e21, -⟩ := index_maps0 t
  unfold Gen.iblk0
  funext y
  rw [View.read_apply]
  show V c main_v43 (((cfg0.win 2).blk t).view.emb y) = V c main_v43 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- What point t writes back is block t of the dense map of the arrays as the region finds them. -/
theorem flushed0_eq (c : Dev nD) (t : Fin cfg0.N) :
    (Gen.dat0 (F := Ideal) V c).flushed 3 t = ((cfg0.win 3).blk t).view.read (Elt Ideal)
      (Cert.Gcn.denseRelu (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero zero_offsets0]
  simp only [View.ld_unit_zero (S := S4000x16) zero_offsets0, View.ld_unit_zero (S := S16x128) zero_offsets0,
    View.ld_unit_zero (S := S1x128) zero_offsets0]
  obtain ⟨-, -, -, -, -, -, e30, e31⟩ := index_maps0 t
  have ht : t.val < 25 := lt_of_lt_of_eq t.isLt Gen.N_0
  funext j
  have hj0 : (j 0).val < 4000 := (j 0).isLt
  have hj1 : (j 1).val < 128 := (j 1).isLt
  have hx : (win0 3).xinj (grid0.coords t) j = ix2 (⟨(j 0).val, hj0⟩ : Fin 4000) (⟨(j 1).val, hj1⟩ : Fin 128) :=
    funext fun a => by
      match a with
      | ⟨0, _⟩ => rfl
      | ⟨1, _⟩ => rfl
  have he : ((cfg0.win 3).blk t).view.emb j
      = ix2 (⟨4000 * t.val + (j 0).val, by omega⟩ : Fin 100000) (⟨(j 1).val, hj1⟩ : Fin 128) :=
    funext fun a => Fin.ext (by
      match a with
      | ⟨0, _⟩ => show win0_3.index t (0 : Fin 2) * 4000 + 1 * (j 0).val = 4000 * t.val + (j 0).val; omega
      | ⟨1, _⟩ => show win0_3.index t (1 : Fin 2) * 128 + 1 * (j 1).val = (j 1).val; omega)
  rw [View.read_apply]
  show Gen.k0_pay1 _ _ _ ((win0 3).xinj (grid0.coords t) j) = Cert.Gcn.denseRelu _ _ _ (((cfg0.win 3).blk t).view.emb j)
  rw [hx, he]
  exact block_value0 _ _ _ _ _ _ _ _ _ (fun k => left_block0 V c t _ k _ rfl) (weights_block0 V c t) (bias_block0 V c t)

/-- An index of the result array is in point t's block iff each coordinate is in the block's range on its axis. -/
theorem mem_block0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v44).slice (win0_3.rect t)).set ↔ _
  rw [View.set_slice_whole, Rect.mem_set_unit]
  exact Iff.rfl

/-- The 25 row blocks tile the 100000 rows: row r is in the block of point r / 4000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hq : (i 0).val / 4000 < 25 := by omega
  obtain ⟨t, ht⟩ : ∃ t : Fin cfg0.N, t.val = (i 0).val / 4000 := ⟨⟨(i 0).val / 4000, lt_of_lt_of_eq hq Gen.N_0.symm⟩, rfl⟩
  obtain ⟨-, -, -, -, -, -, e30, e31⟩ := index_maps0 t
  refine ⟨t, Gen.flush0_3 t, ?_⟩
  rw [mem_block0]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

/-- The first region's result array after the region: relu (x·w + b) of the three arrays the region finds. -/
theorem final0 (c : Dev nD) : (Gen.dat0 (F := Ideal) V c).arrAt 3 cfg0.N
    = Cert.Gcn.denseRelu (V c (Pipeline.arrRef spec0 0)) (V c (Pipeline.arrRef spec0 1)) (V c (Pipeline.arrRef spec0 2)) :=
  (Gen.dat0 V c).arrAt_eq_of_cover 3 _ (fun t _ => flushed0_eq V c t) cover0

end Cert.KernelIdeal.RegionValue

end
-- ==== Proof.Region1.lean ====
/-
  The second region's result array as one function of the arrays the region finds, over the extended reals.

  The region walks 25 points; at point t it reads rows 4000·t … 4000·t + 3999 of a 100000×128 matrix x and the whole
  128×128 matrix w, and stores the whole 4000×128 block x_block · w (a change of element format is the identity here),
  which is written back as rows 4000·t … 4000·t + 3999 of the 100000×128 result. Entry (p, n) of that block depends on
  row p of the x block only, and that row is row 4000·t + p of x; so every block written back is the corresponding
  block of the single array x·w. The 25 row blocks tile the 100000 rows (row r lies in the block of point r / 4000),
  hence after the region the result array is x·w everywhere.
-/
import proofs.«109106_j42442866819845_2_alg».proof.Proof.Gen.KernelIdeal.Frame
import proofs.«109106_j42442866819845_2_alg».proof.Proof.Dense
import proofs.«109106_j42442866819845_2_alg».proof.Proof.LibPlainMatmul
import Idealize.ShloMosaic.Lib.Pipeline.Value
import Idealize.ShloMosaic.Lib.ValueLayout

noncomputable section

open scoped BigOperators

namespace Cert.KernelIdeal.RegionValue

open Cert.KernelIdeal Idealize.ShloMosaic Idealize.ShloMosaic.ValueIdx Idealize.ShloMosaic.TcCoe Idealize.SL.Sem
open Idealize.ShloMosaic.Pipeline (Dat)

/-- The second region's stored value at entry (p, n) of a block: the row of the left block times the column of the
    weights. -/
theorem pay1_apply (x0 : FVec Ideal ⟨2, ![4000, 128]⟩ .f32) (x1 : FVec Ideal ⟨2, ![128, 128]⟩ .f32)
    (p : Fin 4000) (n : Fin 128) :
    Gen.k1_pay1 (F := Ideal) x0 x1 (ix2 p n) = (∑ k : Fin 128, x0 (ix2 p k) * x1 (ix2 k n) : EReal) := by
  unfold Gen.k1_pay1
  rw [truncf_apply]
  refine (Cert.LibPlainMatmul.matmul_eq_plain_zero_apply
    dot_S4000x128_S128x128_S4000x128_1_0_0_1_n_n rfl none _ _ p n).trans ?_
  refine Finset.sum_congr rfl fun k _ => ?_
  rw [truncf_apply, truncf_apply, shapeCast_self]

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the grid: at point t the left operand's and the result's row block is block t,
    the weights are fetched whole. -/
theorem index_maps1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block's stored value at (p, n) is the product of the whole arrays at (r, n), when the left block's row p is
    row r of the left array and the weights' block is their array. -/
theorem block_value1 (A0 : FVec Ideal ⟨2, ![100000, 128]⟩ .f32) (A1 : FVec Ideal ⟨2, ![128, 128]⟩ .f32)
    (B0 : FVec Ideal ⟨2, ![4000, 128]⟩ .f32) (B1 : FVec Ideal ⟨2, ![128, 128]⟩ .f32)
    (p : Fin 4000) (n : Fin 128) (r : Fin 100000)
    (h0 : ∀ k : Fin 128, B0 (ix2 p k) = A0 (ix2 r k)) (h1 : B1 = A1) :
    Gen.k1_pay1 (F := Ideal) B0 B1 (ix2 p n) = Cert.Gcn.dense (φ := .bf16) A0 A1 (ix2 r n) := by
  subst h1
  rw [pay1_apply, Cert.Gcn.dense_apply]
  unfold Cert.Gcn.denseAt
  simp only [h0]

/-- Row p of the left operand's block at point t is row 4000·t + p of the array. -/
theorem left_block1 (c : Dev nD) (t : Fin cfg1.N) (p : Fin 4000) (k : Fin 128) (r : Fin 100000)
    (hr : r.val = 4000 * t.val + p.val) :
    (Gen.iblk1 V c 0 t : FVec Ideal ⟨2, ![4000, 128]⟩ .f32) (ix2 p k)
      = (V c (Pipeline.arrRef spec1 0) : FVec Ideal ⟨2, ![100000, 128]⟩ .f32) (ix2 r k) := by
  obtain ⟨e00, e01, -⟩ := index_maps1 t
  unfold Gen.iblk1
  rw [View.read_apply]
  show V c main_v44 (((cfg1.win 0).blk t).view.emb (ix2 p k)) = V c main_v44 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- The weights' block at any point is the whole array. -/
theorem weights_block1 (c : Dev nD) (t : Fin cfg1.N) :
    (Gen.iblk1 V c 1 t : FVec Ideal ⟨2, ![128, 128]⟩ .f32) = V c (Pipeline.arrRef spec1 1) := by
  obtain ⟨-, -, e10, e11, -⟩ := index_maps1 t
  unfold Gen.iblk1
  funext y
  rw [View.read_apply]
  show V c main_arg3 (((cfg1.win 1).blk t).view.emb y) = V c main_arg3 y
  refine congrArg _ (funext fun a => Fin.ext ?_)
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What point t writes back is block t of the product of the arrays as the region finds them. -/
theorem flushed1_eq (c : Dev nD) (t : Fin cfg1.N) :
    (Gen.dat1 (F := Ideal) V c).flushed 2 t = ((cfg1.win 2).blk t).view.read (Elt Ideal)
      (Cert.Gcn.dense (φ := .bf16) (V c (Pipeline.arrRef spec1 0)) (V c (Pipeline.arrRef spec1 1))) := by
  show (cfg1.win 2).cut (grid1.coords t) ((Gen.dat1 V c).after 2 t) = _
  rw [Gen.after1_2]
  unfold Gen.out1_2
  rw [View.canon_unit_zero zero_offsets1]
  simp only [View.ld_unit_zero (S := S4000x128) zero_offsets1, View.ld_unit_zero (S := S128x128) zero_offsets1]
  obtain ⟨-, -, -, -, e20, e21⟩ := index_maps1 t
  have ht : t.val < 25 := lt_of_lt_of_eq t.isLt Gen.N_1
  funext j
  have hj0 : (j 0).val < 4000 := (j 0).isLt
  have hj1 : (j 1).val < 128 := (j 1).isLt
  have hx : (win1 2).xinj (grid1.coords t) j = ix2 (⟨(j 0).val, hj0⟩ : Fin 4000) (⟨(j 1).val, hj1⟩ : Fin 128) :=
    funext fun a => by
      match a with
      | ⟨0, _⟩ => rfl
      | ⟨1, _⟩ => rfl
  have he : ((cfg1.win 2).blk t).view.emb j
      = ix2 (⟨4000 * t.val + (j 0).val, by omega⟩ : Fin 100000) (⟨(j 1).val, hj1⟩ : Fin 128) :=
    funext fun a => Fin.ext (by
      match a with
      | ⟨0, _⟩ => show win1_2.index t (0 : Fin 2) * 4000 + 1 * (j 0).val = 4000 * t.val + (j 0).val; omega
      | ⟨1, _⟩ => show win1_2.index t (1 : Fin 2) * 128 + 1 * (j 1).val = (j 1).val; omega)
  rw [View.read_apply]
  show Gen.k1_pay1 _ _ ((win1 2).xinj (grid1.coords t) j) = Cert.Gcn.dense _ _ (((cfg1.win 2).blk t).view.emb j)
  rw [hx, he]
  exact block_value1 _ _ _ _ _ _ _ (fun k => left_block1 V c t _ k _ rfl) (weights_block1 V c t)

/-- An index of the result array is in point t's block iff each coordinate is in the block's range on its axis. -/
theorem mem_block1 (t : Fin cfg1.N) (i : S100000x128.Idx) :
    i ∈ ((cfg1.win 2).blk t).view.set ↔ ∀ a : Fin 2, win1_2.index t a * S4000x128.size a ≤ (i a).val
      ∧ (i a).val < win1_2.index t a * S4000x128.size a + S4000x128.size a := by
  show i ∈ ((View.whole main_v45).slice (win1_2.rect t)).set ↔ _
  rw [View.set_slice_whole, Rect.mem_set_unit]
  exact Iff.rfl

/-- The 25 row blocks tile the 100000 rows: row r is in the block of point r / 4000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hq : (i 0).val / 4000 < 25 := by omega
  obtain ⟨t, ht⟩ : ∃ t : Fin cfg1.N, t.val = (i 0).val / 4000 := ⟨⟨(i 0).val / 4000, lt_of_lt_of_eq hq Gen.N_1.symm⟩, rfl⟩
  obtain ⟨-, -, -, -, e20, e21⟩ := index_maps1 t
  refine ⟨t, Gen.flush1_2 t, ?_⟩
  rw [mem_block1]
  intro a
  match a with
  | ⟨0, _⟩ =>
    show win1_2.index t (0 : Fin 2) * 4000 ≤ (i 0).val ∧ (i 0).val < win1_2.index t (0 : Fin 2) * 4000 + 4000
    omega
  | ⟨1, _⟩ =>
    show win1_2.index t (1 : Fin 2) * 128 ≤ (i 1).val ∧ (i 1).val < win1_2.index t (1 : Fin 2) * 128 + 128
    omega

/-- The second region's result array after the region: x·w of the two arrays the region finds. -/
theorem final1 (c : Dev nD) : (Gen.dat1 (F := Ideal) V c).arrAt 2 cfg1.N
    = Cert.Gcn.dense (φ := .bf16) (V c (Pipeline.arrRef spec1 0)) (V c (Pipeline.arrRef spec1 1)) :=
  (Gen.dat1 V c).arrAt_eq_of_cover 2 _ (fun t _ => flushed1_eq V c t) cover1

end Cert.KernelIdeal.RegionValue

end
-- ==== Proof.KernelValue.lean ====
/-
  The idealized kernel's result array as one function of the launch memory.

  Walking the segment boundaries forward: the first region finds the aggregated 16-wide table, the first weight matrix
  and the first bias row, and leaves relu (aggregated · W1 + b1) in its output array; the second region finds that array
  and the second weight matrix and leaves their product; the last stretch of host operations gathers that product's
  rows along the extended edges, weighs them, sums them by destination and adds the second bias. A region changes its
  own arrays only, so the index vectors, the edge weights and the arguments reach the last stretch as they were.
-/
import proofs.«109106_j42442866819845_2_alg».proof.Proof.Gen.KernelIdeal.Frame
import proofs.«109106_j42442866819845_2_alg».proof.Proof.KernelHost
import proofs.«109106_j42442866819845_2_alg».proof.Proof.Region0
import proofs.«109106_j42442866819845_2_alg».proof.Proof.Region1
import proofs.«109106_j42442866819845_2_alg».proof.Proof.Terms
import proofs.«109106_j42442866819845_2_alg».proof.Proof.Dense

set_option maxRecDepth 16384

noncomputable section

namespace Cert.KernelIdeal.KernelValue

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ) (ρ : Dev nD → PrngReg)

/-- The hidden table: relu (aggregated input · W1 + b1), as the first region leaves it. -/
abbrev hidden (c : Dev nD) : FVec Ideal S100000x128 .f32 :=
  Cert.Gcn.denseRelu (Terms.aggregate16 (m ((c : Thread nD τ).loc main_arg0)) (m ((c : Thread nD τ).loc main_arg5)))
    (m ((c : Thread nD τ).loc main_arg1))
    (shapeCast S1x128 (m ((c : Thread nD τ).loc main_arg2)) Facts₀.shapeCasts_S128_S1x128)

/-- After the first region its output array holds the hidden table. -/
theorem W4_hidden (c : Dev nD) : W4 m ρ c (Proc.devRef .tc main_v44) = hidden m c := by
  refine (W4_arr m ρ c 3).trans ?_
  rw [RegionValue.final0]
  show Cert.Gcn.denseRelu (W3 m ρ c (Proc.devRef .tc main_v42)) (W3 m ρ c (Proc.devRef .tc main_arg1))
    (W3 m ρ c (Proc.devRef .tc main_v43)) = _
  rw [W3_aggregate, W3_arg1, W3_biasRow]

/-- After the second region its output array holds hidden · W2. -/
theorem W5_product (c : Dev nD) :
    W5 m ρ c (Proc.devRef .tc main_v45)
      = Cert.Gcn.dense (φ := .bf16) (hidden m c) (m ((c : Thread nD τ).loc main_arg3)) := by
  refine (W5_arr m ρ c 2).trans ?_
  rw [RegionValue.final1]
  show Cert.Gcn.dense (W4 m ρ c (Proc.devRef .tc main_v44)) (W4 m ρ c (Proc.devRef .tc main_arg3)) = _
  rw [W4_hidden, W4_of_ne m ρ c main_arg3 (by decide), W3_arg3]

/-- THE RESULT: the last stretch's operations on hidden · W2, the second bias and the edge list. -/
theorem W6_result (c : Dev nD) :
    W6 m ρ c (Proc.devRef .tc main_v62)
      = Terms.kernelTail (Cert.Gcn.dense (φ := .bf16) (hidden m c) (m ((c : Thread nD τ).loc main_arg3)))
          (m ((c : Thread nD τ).loc main_arg4)) (m ((c : Thread nD τ).loc main_arg5)) := by
  have h45 := W5_product m ρ c
  have h5 : W5 m ρ c (Proc.devRef .tc main_v5) = Terms.dst (m ((c : Thread nD τ).loc main_arg5)) :=
    (W5_of_ne m ρ c main_v5 (by decide)).trans ((W4_of_ne m ρ c main_v5 (by decide)).trans (W3_dst m ρ c))
  have h6 : W5 m ρ c (Proc.devRef .tc main_v6) = Terms.src (m ((c : Thread nD τ).loc main_arg5)) :=
    (W5_of_ne m ρ c main_v6 (by decide)).trans ((W4_of_ne m ρ c main_v6 (by decide)).trans (W3_src m ρ c))
  have h29 : W5 m ρ c (Proc.devRef .tc main_v29) = Terms.norm (F := Ideal) (m ((c : Thread nD τ).loc main_arg5)) :=
    (W5_of_ne m ρ c main_v29 (by decide)).trans ((W4_of_ne m ρ c main_v29 (by decide)).trans (W3_norm m ρ c))
  have h4 : W5 m ρ c (Proc.devRef .tc main_arg4) = m ((c : Thread nD τ).loc main_arg4) :=
    (W5_of_ne m ρ c main_arg4 (by decide)).trans ((W4_of_ne m ρ c main_arg4 (by decide)).trans (W3_arg4 m ρ c))
  show StableHlo.after hostOps2 (W5 m ρ c) (Proc.devRef .tc main_v62) = _
  generalize W5 m ρ c = V5 at h45 h5 h6 h29 h4 ⊢
  after_results_simp
  rw [h45, h5, h6, h29, h4]
  rfl

end Cert.KernelIdeal.KernelValue

end
-- ==== Proof.RefTerm.lean ====
/-
  The reference's result as the named composition: aggregate (relu (aggregate (x·W1) + b1) · W2) + b2.

  The reference's run ends with its result buffer at the composed term of its 119 host operations over the arguments'
  launch contents. That term is, piece by piece, the two-layer composition of `Terms` (the reference computes the
  index vectors and the edge weights once per layer; both copies are the same functions of the edge list).
-/
import proofs.«109106_j42442866819845_2_alg».proof.Proof.RefRun
import proofs.«109106_j42442866819845_2_alg».proof.Proof.Terms

set_option maxRecDepth 16384

noncomputable section

namespace Cert.ReferenceIdeal.RefValue

open Cert.ReferenceIdeal Idealize.ShloMosaic Idealize.ShloMosaic.TcCoe Idealize.SL.Sem

variable {F : FTy → Type} [FloatOps F]

/-- The reference's result term is the two-layer composition of the arguments. -/
theorem res_eq (m : (ℓ : Loc nD τ sig) → Buf (Elt F) ℓ) (c : Dev nD) :
    Cert.ReferenceIdeal.ValueP.res_main_v90 m c
      = Cert.KernelIdeal.Terms.refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v90
  rfl

end Cert.ReferenceIdeal.RefValue

end
-- ==== Proof.Reads.lean ====
/-
  The layout operations around the aggregation, read at an index over the extended reals: the edge weights repeated
  along the columns of a per-edge table are the weight of the row's edge; a bias repeated down 100000 rows, or
  reshaped to a 1×128 row, is the bias entry of the column; a splat of the zero pattern is 0 everywhere.
-/
import proofs.«109106_j42442866819845_2_alg».proof.Proof.Terms
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reads

open Cert.KernelIdeal Cert.KernelIdeal.Terms
open Cert.KernelIdeal.Facts₀ Cert.KernelIdeal.Facts
open Idealize.ShloMosaic Idealize.ShloMosaic.ValueIdx

/-- The edge weights repeated along 128 columns, at (e, n): the weight of edge e. -/
theorem normCols128_apply (ei : IVec S2x640000 32) (e : Fin 740000) (n : Fin 128) :
    normCols128 (F := Ideal) ei (ix2 e n) = norm (F := Ideal) ei (ix1 e) := by
  unfold normCols128
  refine (broadcastInDim_apply _ _ _ (ix2 e n) (ix2 e (0 : Fin 1)) (fun a => ?_)).trans ?_
  · match a with
    | ⟨0, _⟩ => show e.val = if (740000 : ℕ) = 1 then 0 else e.val; rw [if_neg (by decide)]
    | ⟨1, _⟩ => show (0 : ℕ) = if (1 : ℕ) = 1 then 0 else n.val; rw [if_pos rfl]
  · refine broadcastInDim_apply _ _ _ (ix2 e (0 : Fin 1)) (ix1 e) (fun a => ?_)
    match a with
    | ⟨0, _⟩ => show e.val = if (740000 : ℕ) = 1 then 0 else e.val; rw [if_neg (by decide)]

/-- The edge weights repeated along 16 columns, at (e, k): the weight of edge e. -/
theorem normCols16_apply (ei : IVec S2x640000 32) (e : Fin 740000) (k : Fin 16) :
    normCols16 (F := Ideal) ei (ix2 e k) = norm (F := Ideal) ei (ix1 e) := by
  unfold normCols16
  refine (broadcastInDim_apply _ _ _ (ix2 e k) (ix2 e (0 : Fin 1)) (fun a => ?_)).trans ?_
  · match a with
    | ⟨0, _⟩ => show e.val = if (740000 : ℕ) = 1 then 0 else e.val; rw [if_neg (by decide)]
    | ⟨1, _⟩ => show (0 : ℕ) = if (1 : ℕ) = 1 then 0 else k.val; rw [if_pos rfl]
  · refine broadcastInDim_apply _ _ _ (ix2 e (0 : Fin 1)) (ix1 e) (fun a => ?_)
    match a with
    | ⟨0, _⟩ => show e.val = if (740000 : ℕ) = 1 then 0 else e.val; rw [if_neg (by decide)]

/-- A length-128 bias added to every row, at (p, n): the bias entry n. -/
theorem biasRows_apply (b : FVec Ideal S128 .f32) (p : Fin 100000) (n : Fin 128) :
    biasRows b (ix2 p n) = b (ix1 n) := by
  unfold biasRows
  refine (broadcastInDim_apply _ _ _ (ix2 p n) (ix2 (0 : Fin 1) n) (fun a => ?_)).trans ?_
  · match a with
    | ⟨0, _⟩ => show (0 : ℕ) = if (1 : ℕ) = 1 then 0 else p.val; rw [if_pos rfl]
    | ⟨1, _⟩ => show n.val = if (128 : ℕ) = 1 then 0 else n.val; rw [if_neg (by decide)]
  · refine broadcastInDim_apply _ _ _ (ix2 (0 : Fin 1) n) (ix1 n) (fun a => ?_)
    match a with
    | ⟨0, _⟩ => show n.val = if (128 : ℕ) = 1 then 0 else n.val; rw [if_neg (by decide)]

/-- A length-128 bias reshaped to a 1×128 row, at (0, n): the bias entry n. -/
theorem biasRow_apply (b : FVec Ideal S128 .f32) (n : Fin 128) :
    (shapeCast S1x128 b shapeCasts_S128_S1x128 : FVec Ideal S1x128 .f32) (ix2 (0 : Fin 1) n) = b (ix1 n) :=
  shapeCast_a_1a_apply b shapeCasts_S128_S1x128 (0 : Fin 1) n

/-- A splat of the zero pattern is 0 at every index. -/
theorem zeros_apply {s : Shape} (h : S_.BroadcastsInDim s (![] : Fin 0 → Fin s.rank)) (i : s.Idx) :
    broadcastInDim s ![] h (constant (F := Ideal) S_ .f32 0x00000000#32) i = 0 :=
  Ideal.ofBits_zero_f32

end Cert.KernelIdeal.Reads

end
-- ==== Proof.LibFinite.lean ====
/- A general lemma file: which operations of the ideal instance keep an extended real FINITE (a real number).

   The extended reals' sum and product are total, but the laws that move a factor across a sum hold only at
   finite entries, so a proof that uses such a law carries "every entry is a real" from the inputs through each
   stage. Here: sums, differences, products, maxima and minima of reals are real; so is a quotient by a nonzero
   real, a finite sum of reals, and the reciprocal square root of a positive real. -/
import Idealize.ShloMosaic.PureOps.Ideal

namespace Cert.Lib.Finite

open Idealize.ShloMosaic

/-- An extended real that is a real number. -/
def IsReal (x : EReal) : Prop := ∃ r : ℝ, x = (r : EReal)

theorem coe (r : ℝ) : IsReal (r : EReal) := ⟨r, rfl⟩

theorem zero : IsReal 0 := ⟨0, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem neg {x : EReal} (hx : IsReal x) : IsReal (-x) := by
  obtain ⟨a, rfl⟩ := hx; exact ⟨-a, (EReal.coe_neg a).symm⟩

theorem max {x y : EReal} (hx : IsReal x) (hy : IsReal y) : IsReal (Max.max x y) := by
  rcases max_choice x y with h | h <;> rw [h] <;> assumption

theorem min {x y : EReal} (hx : IsReal x) (hy : IsReal y) : IsReal (Min.min x y) := by
  rcases min_choice x y with h | h <;> rw [h] <;> assumption

/-- A quotient of a real by a nonzero real. -/
theorem div_real {x : EReal} (hx : IsReal x) {c : ℝ} (hc : c ≠ 0) : IsReal (Ideal.div x (c : EReal)) := by
  rw [Ideal.div_coe hc]; exact mul hx (coe _)

/-- A finite sum of reals. -/
theorem sum {κ : Type} (s : Finset κ) (f : κ → EReal) (h : ∀ i ∈ s, IsReal (f i)) : IsReal (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))

/-- The reciprocal square root of a positive real. -/
theorem rsqrt_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

end Cert.Lib.Finite
-- ==== Proof.NormReal.lean ====
/-
  Every edge weight is a real number, whatever the edge list holds.

  The weight of edge e is a product of two entries of the vector degree^(-1/2). An entry of that vector is, where the
  degree is positive, 1/√degree — a real number for a positive real degree, and 0 for the degree +∞ — and 0 where the
  degree is not positive. So every entry is real without knowing that the degree is finite, and a gathered entry is
  an entry of the vector gathered from.
-/
import proofs.«109106_j42442866819845_2_alg».proof.Proof.Terms
import proofs.«109106_j42442866819845_2_alg».proof.Proof.Reads
import proofs.«109106_j42442866819845_2_alg».proof.Proof.LibFinite
import Idealize.ShloMosaic.Lib.ValueIdx
import Idealize.ShloMosaic.PureOps.Ideal.Laws

noncomputable section

namespace Cert.KernelIdeal.NormReal

open Cert.KernelIdeal Cert.KernelIdeal.Terms Cert.KernelIdeal.Reads Cert.Lib.Finite
open Idealize.ShloMosaic Idealize.ShloMosaic.ValueIdx

/-- 1/√d is real for every extended real d > 0: (√r)⁻¹ at a positive real r, and 0 at +∞. -/
theorem rsqrt_real_of_pos {d : EReal} (h : 0 < d) : IsReal (Ideal.rsqrt d) := by
  induction d using EReal.rec with
  | bot => exact absurd h (by simp)
  | top => exact ⟨0, rfl⟩
  | coe r => exact rsqrt_pos (by exact_mod_cast h)

/-- "1/√d if d > 0, else 0" is real for every extended real d. -/
theorem select_rsqrt_real (d : EReal) :
    IsReal (Scalar.select (Ideal.cmp .ogt d 0) (Ideal.rsqrt d) (0 : EReal)) := by
  unfold Scalar.select
  by_cases h : (0 : EReal) < d
  · have hm : Ideal.cmp .ogt d 0 = 1 := by
      show BitVec.ofBool (decide ((0 : EReal) < d)) = 1
      rw [decide_eq_true h]; rfl
    rw [if_pos hm]
    exact rsqrt_real_of_pos h
  · have hm : ¬ (Ideal.cmp .ogt d 0 = 1) := by
      show ¬ (BitVec.ofBool (decide ((0 : EReal) < d)) = 1)
      rw [decide_eq_false h]; decide
    rw [if_neg hm]
    exact zero

/-- An entry of "1/√D where D > Z, else Z'" is real when Z and Z' vanish at that entry. -/
theorem select_entry_real (D Z Z' : FVec Ideal S100000 .f32) (i : S100000.Idx) (hZ : Z i = 0) (hZ' : Z' i = 0) :
    IsReal (select (cmpf (F := Ideal) .ogt D Z) (Host.rsqrt D) Z' i) := by
  rw [select_apply, cmpf_apply, hZ, hZ']
  exact select_rsqrt_real (D i)

/-- Every entry of degree^(-1/2) is real. -/
theorem invSqrtDegree_real (ei : IVec S2x640000 32) (i : S100000.Idx) : IsReal (invSqrtDegree (F := Ideal) ei i) :=
  select_entry_real (degree ei) _ _ i (zeros_apply _ i) (zeros_apply _ i)

/-- Every edge weight is real. -/
theorem norm_real (ei : IVec S2x640000 32) (j : S740000.Idx) : IsReal (Terms.norm (F := Ideal) ei j) := by
  unfold Terms.norm
  rw [mulf_apply]
  unfold Host.gather
  exact mul (invSqrtDegree_real ei _) (invSqrtDegree_real ei _)

end Cert.KernelIdeal.NormReal

end
-- ==== Proof.LibRowScatter.lean ====
/-
  SCATTER-ADD OF ROWS THROUGH AN INDEX COLUMN. A table of `N` rows of `D` entries, shape `[N, D]`; scatter indices of
  shape `[E, 1]`, one row number per update row, the index vector along axis 1; updates of shape `[E, D]`. Update row
  `e` is aimed, entry by entry, at the table row its scatter index names: the updates' axis 1 is the window axis and
  goes to the table's axis 1, the table's axis 0 is the inserted axis the scatter index addresses.

  This file gives the dimension numbers of that scatter, general in the extents `N`, `E` and `D`, and proves
  `resultIdx_row`: the update at `(e, d')` lands on the table entry `(n, d)` exactly when the scatter index `idx[e, 0]`,
  read as a signed integer and NOT clamped, equals `n`, and `d' = d` (an index outside `[0, N)` lands nowhere). On the
  table's axis 0 the start is the scatter index and the window coordinate is `0`; on axis 1 the start is `0` and the
  window coordinate is `d'`, always inside the axis.
-/
import Idealize.ShloMosaic.Lib.ValueIdx

noncomputable section

open scoped BigOperators
open Idealize.ShloMosaic Idealize.ShloMosaic.ValueIdx

namespace Cert.Lib.RowScatter

/-! ## Where an update of the row scatter lands

A table of `N` rows of `D` entries, scatter indices `[E, 1]` (one row number per update row), updates `[E, D]`: update
row `e` is added, entry by entry, to the table row its scatter index names. -/

/-- Scatter into a table `[N, D]` at scatter indices `[E, 1]` of updates `[E, D]`: operand axis 0 is an inserted
    window axis and the target of the scatter index's one component; the updates' axis 1 is a window axis going to
    operand axis 1. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The row scatter's start on operand axis 0 for update `(e, d')`: the scatter index `idx[e, 0]`, read signed. -/
theorem rowScatter_start_zero {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e d') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The row scatter's start on operand axis 1 is `0`: the scatter index has no component for it. -/
theorem rowScatter_start_one {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) :
    (rowScatter N E D wf).start (ix2 e d') idx 1 = 0 := by
  unfold ScatterDims.start
  rw [dif_neg (fun h => absurd (congrArg Fin.val (List.mem_singleton.mp h)) Nat.one_ne_zero)]

/-- The row scatter's window coordinate on operand axis 0 is `0`: that axis is an inserted one. -/
theorem rowScatter_window_zero {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 0 = 0 := by
  unfold ScatterDims.window
  rw [dif_neg (by simp [ScatterDims.sKept, Shape.kept])]

/-- The row scatter's window coordinate on operand axis 1 is the update's coordinate on its axis 1. -/
theorem rowScatter_window_one {N E D : Nat} (wf : ScatterDims.WF ⟨2, ![N, D]⟩ ⟨2, ![E, 1]⟩ ⟨2, ![E, D]⟩ [1] [0] [0] 1)
    (e : Fin E) (d' : Fin D) : (rowScatter N E D wf).window (ix2 e d') 1 = d'.val := by
  unfold ScatterDims.window
  split
  · rfl
  · next h => exact absurd (by simp [ScatterDims.sKept, Shape.kept]) h

/-- WHERE THE ROW SCATTER'S UPDATE `(e, d')` LANDS: on `(n, d)` exactly when the scatter index `idx[e, 0]`, read
    signed, is `n` and `d' = d`. On axis 1 the start is `0` and the window coordinate `d'` is inside the axis. -/
theorem resultIdx_row {N E D w : Nat} (wf : ScatterDims.WF ⟨2, ![N, D]⟩ ⟨2, ![E, 1]⟩ ⟨2, ![E, D]⟩ [1] [0] [0] 1)
    (idx : IVec ⟨2, ![E, 1]⟩ w) (e : Fin E) (d' : Fin D) (n : Fin N) (d : Fin D) :
    (rowScatter N E D wf).resultIdx? (ix2 e d') idx = some (ix2 n d)
      ↔ ((idx (ix2 e 0)).toInt = (n.val : Int) ∧ d' = d) := by
  have hs0 := rowScatter_start_zero wf idx e d'
  have hs1 := rowScatter_start_one wf idx e d'
  have hw0 := rowScatter_window_zero wf e d'
  have hw1 := rowScatter_window_one wf e d'
  have hn := n.isLt
  have hd' := d'.isLt
  unfold ScatterDims.resultIdx?
  split
  · next h =>
    have h0 : 0 ≤ (rowScatter N E D wf).start (ix2 e d') idx 0 + ((rowScatter N E D wf).window (ix2 e d') 0 : Nat)
        ∧ (rowScatter N E D wf).start (ix2 e d') idx 0 + ((rowScatter N E D wf).window (ix2 e d') 0 : Nat) < (N : Int) := h 0
    rw [hs0, hw0] at h0
    constructor
    · intro hf
      have h1 : ((rowScatter N E D wf).start (ix2 e d') idx 0 + ((rowScatter N E D wf).window (ix2 e d') 0 : Nat)).toNat = n.val :=
        congrArg (fun f => (f 0).val) (Option.some.inj hf)
      have h2 : ((rowScatter N E D wf).start (ix2 e d') idx 1 + ((rowScatter N E D wf).window (ix2 e d') 1 : Nat)).toNat = d.val :=
        congrArg (fun f => (f 1).val) (Option.some.inj hf)
      rw [hs0, hw0] at h1
      rw [hs1, hw1] at h2
      refine ⟨by omega, Fin.ext (by omega)⟩
    · rintro ⟨hv, rfl⟩
      congr 1
      funext a
      refine Fin.ext ?_
      match a with
      | ⟨0, _⟩ =>
        show ((rowScatter N E D wf).start (ix2 e d') idx 0 + ((rowScatter N E D wf).window (ix2 e d') 0 : Nat)).toNat = n.val
        rw [hs0, hw0, hv]
        omega
      | ⟨1, _⟩ =>
        show ((rowScatter N E D wf).start (ix2 e d') idx 1 + ((rowScatter N E D wf).window (ix2 e d') 1 : Nat)).toNat = d'.val
        rw [hs1, hw1]
        omega
  · next h =>
    constructor
    · intro hf
      exact absurd hf (by simp)
    · rintro ⟨hv, rfl⟩
      refine absurd (fun a => ?_) h
      match a with
      | ⟨0, _⟩ =>
        show 0 ≤ (rowScatter N E D wf).start (ix2 e d') idx 0 + ((rowScatter N E D wf).window (ix2 e d') 0 : Nat)
          ∧ (rowScatter N E D wf).start (ix2 e d') idx 0 + ((rowScatter N E D wf).window (ix2 e d') 0 : Nat) < (N : Int)
        rw [hs0, hw0, hv]
        omega
      | ⟨1, _⟩ =>
        show 0 ≤ (rowScatter N E D wf).start (ix2 e d') idx 1 + ((rowScatter N E D wf).window (ix2 e d') 1 : Nat)
          ∧ (rowScatter N E D wf).start (ix2 e d') idx 1 + ((rowScatter N E D wf).window (ix2 e d') 1 : Nat) < ((D : Nat) : Int)
        rw [hs1, hw1]
        omega

end Cert.Lib.RowScatter

end
-- ==== Proof.LibRowGather.lean ====
/-
  A general lemma about `stablehlo.gather`: rows of a table taken at a column of start indices.

  For a table `x : [N, D]` and a column `idx : [E, 1]` of integer start indices, the gather with offset_dims `[1]`,
  collapsed_slice_dims `[0]`, start_index_map `[0]`, index_vector_dim `1` and slice_sizes `[1, D]` — what `take(x, idx, axis = 0)`
  of a two-dimensional table lowers to — has result `[E, D]`, and its entry `(e, d)` is the table's entry `(i, d)`, where `i` is
  the start index `idx (e, 0)` read as a signed integer and clamped into `[0, N - 1]`: a whole row of the table per start index.
-/
import Idealize.ShloMosaic.Lib.ValueIdx

noncomputable section

namespace Idealize.ShloMosaic.RowGather

open Idealize.ShloMosaic Idealize.ShloMosaic.ValueIdx

variable {α : Type}

/-- Those dimension numbers for a table `[N, D]`, start indices `[E, 1]` and result `[E, D]`; their conditions `wf` are
    decided on a program's literal shapes. -/
abbrev rowDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE GATHER READ AT `(e, d)`: the table at row `idx (e, 0)`, read signed and clamped into `[0, N - 1]`, and column `d`. -/
theorem gather_row_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N E D wf) x idx (ix2 e d)
      = x (ix2 ⟨min (idx (ix2 e (0 : Fin 1))).toInt.toNat (N - 1), by omega⟩ d) := by
  unfold Host.gather
  congr 1
  funext a
  refine Fin.ext ?_
  show (rowDims N E D wf).start (ix2 e d) idx a + (rowDims N E D wf).batchCoord (ix2 e d) a
    + (rowDims N E D wf).offCoord (ix2 e d) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N E D wf).startIndexMap from List.mem_singleton.mpr rfl)]
    have hsi : (rowDims N E D wf).siIdx (ix2 e d) ⟨List.idxOf (⟨0, by omega⟩ : Fin 2) (rowDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have h1 : (⟨1, by omega⟩ : Fin 2) ∉ (rowDims N E D wf).startIndexMap :=
      fun h => Nat.one_ne_zero (congrArg Fin.val (List.mem_singleton.mp h))
    have hs : (rowDims N E D wf).start (ix2 e d) idx ⟨1, by omega⟩ = 0 := by
      unfold GatherDims.start; rw [dif_neg h1]
    rw [hs]
    have hk : (⟨1, by omega⟩ : Fin 2) ∈ (rowDims N E D wf).sKept :=
      (GatherDims.mem_sKept _ _).mpr
        ⟨fun h => Nat.one_ne_zero (congrArg Fin.val (List.mem_singleton.mp h)), List.not_mem_nil⟩
    unfold GatherDims.offCoord
    rw [dif_pos hk]
    simp only [Nat.zero_add]
    rfl

end Idealize.ShloMosaic.RowGather

end
-- ==== Proof.LibRowAggregate.lean ====
/-
  ROWS OF A TABLE ADDED TO AND READ THROUGH A COLUMN OF ROW NUMBERS, AT THE IDEAL INSTANCE.

  A table has `N` rows of `D` entries, shape `[N, D]`. A column `idx` of shape `[E, 1]` holds one integer per update
  (or result) row, of any bit width `w`, read as a SIGNED integer.

  * SCATTER-ADD (`scatterAdd_row_apply`). Updates of shape `[E, D]`; update row `e` is added, entry by entry, to the
    table row that `idx[e, 0]` names. The row number is NOT clamped: an update whose row number lies outside `[0, N)`
    is dropped. At the ideal instance floats are extended reals and the accumulation is the exact sum, so the result
    at `(n, d)` is the table's entry plus the sum of `upd[e, d]` over the update rows `e` whose row number is `n`
    (`landing idx n`) -- in whatever order the colliding updates are met, since the sum of extended reals over a
    finite set does not depend on an order.

  * GATHER (`gather_row_apply'`). The result `[E, D]` has, at `(e, d)`, the table's entry at row `srcRow idx e` and
    column `d`, where `srcRow idx e` is `idx[e, 0]` read signed and CLAMPED into `[0, N - 1]` (a negative row number
    reads row `0`, one past the end reads row `N - 1`). This holds for entries of any type.

  The asymmetry between the two (dropped against clamped) is that of the two operations themselves: a scatter ignores
  an update whose window falls outside the operand, a gather moves an out-of-bounds window back inside the operand.

  Both statements take the dimension numbers as a record `sd` / `gd` together with an equation saying that it is the
  row scatter / row gather of the two companion files; for a record whose fields are those literal lists the equation
  holds by `rfl`.
-/
import Idealize.ShloMosaic.Lib.ValueIdx
import Idealize.ShloMosaic.PureOps.Ideal
import proofs.«109106_j42442866819845_2_alg».proof.Proof.LibRowScatter
import proofs.«109106_j42442866819845_2_alg».proof.Proof.LibRowGather

noncomputable section

open scoped BigOperators
open Idealize.ShloMosaic Idealize.ShloMosaic.ValueIdx

namespace Cert.Lib.RowAggregate

/-- the table row that entry e of an index column names: read signed, clamped into [0, N − 1] -/
def srcRow {N E w : ℕ} (hN : 0 < N) (idx : IVec ⟨2, ![E, 1]⟩ w) (e : Fin E) : Fin N :=
  ⟨min (idx (ix2 e (0 : Fin 1))).toInt.toNat (N - 1), by omega⟩

/-- the update rows aimed at table row n: the index read signed and NOT clamped equals n -/
def landing {N E w : ℕ} (idx : IVec ⟨2, ![E, 1]⟩ w) (n : Fin N) : Finset (Fin E) :=
  Finset.univ.filter fun e => (idx (ix2 e (0 : Fin 1))).toInt = (n.val : Int)

/-- Membership in `landing`: update row `e` is aimed at table row `n` exactly when its row number, read signed, is `n`. -/
theorem mem_landing {N E w : ℕ} (idx : IVec ⟨2, ![E, 1]⟩ w) (n : Fin N) (e : Fin E) :
    e ∈ landing idx n ↔ (idx (ix2 e (0 : Fin 1))).toInt = (n.val : Int) := by
  unfold landing
  rw [Finset.mem_filter]
  exact ⟨fun h => h.2, fun h => ⟨Finset.mem_univ _, h⟩⟩

/-- THE SCATTER-ADD OF ROWS READ AT `(n, d)`: the table's entry plus the sum, over the update rows `e` whose row number
    is `n`, of `upd[e, d]`. The update indices `(e, d')` that land on `(n, d)` are exactly those with `e` aimed at `n`
    and `d' = d`, so `(e, d') ↦ e` and `e ↦ (e, d)` are inverse bijections between them and `landing idx n`, and the
    summands correspond. -/
theorem scatterAdd_row_apply {N E D w : ℕ} {φ : FTy} (sd : ScatterDims ⟨2, ![N, D]⟩ ⟨2, ![E, 1]⟩ ⟨2, ![E, D]⟩)
    (wf : ScatterDims.WF ⟨2, ![N, D]⟩ ⟨2, ![E, 1]⟩ ⟨2, ![E, D]⟩ [1] [0] [0] 1) (hsd : sd = Cert.Lib.RowScatter.rowScatter N E D wf)
    (x : FVec Ideal ⟨2, ![N, D]⟩ φ) (idx : IVec ⟨2, ![E, 1]⟩ w) (upd : FVec Ideal ⟨2, ![E, D]⟩ φ) (n : Fin N) (d : Fin D) :
    Host.scatterAdd (F := Ideal) sd x idx upd (ix2 n d) = x (ix2 n d) + ∑ e ∈ landing idx n, upd (ix2 e d) := by
  subst hsd
  show Ideal.hostScatterAdd (Cert.Lib.RowScatter.rowScatter N E D wf) x idx upd (ix2 n d) = _
  unfold Ideal.hostScatterAdd
  congr 1
  -- an update index that lands on `(n, d)`, in coordinates: its row is aimed at `n` and its column is `d`
  have key : ∀ j : (⟨2, ![E, D]⟩ : Shape).Idx,
      j ∈ Finset.univ.filter (fun j => (Cert.Lib.RowScatter.rowScatter N E D wf).resultIdx? j idx = some (ix2 n d)) →
      ∃ e : Fin E, j = ix2 e d ∧ e ∈ landing idx n := by
    intro j hj
    obtain ⟨e, d', rfl⟩ : ∃ (e : Fin E) (d' : Fin D), j = ix2 e d' := ⟨j 0, j 1, eq_ix2 j⟩
    obtain ⟨he, rfl⟩ := (Cert.Lib.RowScatter.resultIdx_row wf idx e d' n d).mp (Finset.mem_filter.mp hj).2
    exact ⟨e, rfl, (mem_landing idx n e).mpr he⟩
  refine Finset.sum_nbij' (fun j => (j 0 : Fin E)) (fun e => ix2 e d) ?_ ?_ ?_ ?_ ?_
  · intro j hj
    obtain ⟨e, rfl, he⟩ := key j hj
    exact he
  · intro e he
    exact Finset.mem_filter.mpr ⟨Finset.mem_univ _,
      (Cert.Lib.RowScatter.resultIdx_row wf idx e d n d).mpr ⟨(mem_landing idx n e).mp he, rfl⟩⟩
  · intro j hj
    obtain ⟨e, rfl, _⟩ := key j hj
    rfl
  · intro e _
    rfl
  · intro j hj
    obtain ⟨e, rfl, _⟩ := key j hj
    rfl

/-- THE GATHER OF ROWS READ AT `(e, d)`: the table at row `srcRow idx e` (the row number `idx[e, 0]` read signed and
    clamped into `[0, N - 1]`) and column `d`. -/
theorem gather_row_apply' {N E D w : ℕ} {α : Type} (hN : 0 < N) (gd : GatherDims ⟨2, ![N, D]⟩ ⟨2, ![E, 1]⟩ ⟨2, ![E, D]⟩)
    (wf : GatherDims.WF ⟨2, ![N, D]⟩ ⟨2, ![E, 1]⟩ ⟨2, ![E, D]⟩ [1] [0] [] [0] [] 1 ![1, D]) (hgd : gd = Idealize.ShloMosaic.RowGather.rowDims N E D wf)
    (x : (⟨2, ![N, D]⟩ : Shape).Idx → α) (idx : IVec ⟨2, ![E, 1]⟩ w) (e : Fin E) (d : Fin D) :
    Host.gather gd x idx (ix2 e d) = x (ix2 (srcRow hN idx e) d) := by
  subst hgd
  exact Idealize.ShloMosaic.RowGather.gather_row_apply hN wf x idx e d

/-! ## The one-dimensional cousin: entries of a vector read through a column of positions

A vector `x : [N]`, a column `idx : [E, 1]` of positions, result `[E]`: entry `e` of the result is the vector at position
`idx[e, 0]`, read signed and clamped into `[0, N - 1]` (the same `srcRow`, the vector being a table of `N` rows with no
column axis). In particular every entry of the result is SOME entry of the vector, and for that alone nothing about
the dimension numbers is needed. -/

/-- Every entry a gather of a vector `[N]` through an index column `[E, 1]` returns is some entry of the vector, whatever
    the dimension numbers: the gather reads the vector at a computed position, and a position of a vector is its one
    coordinate. -/
theorem gather_vec_mem {N E w : ℕ} {α : Type} (gd : GatherDims ⟨1, ![N]⟩ ⟨2, ![E, 1]⟩ ⟨1, ![E]⟩)
    (x : (⟨1, ![N]⟩ : Shape).Idx → α) (idx : IVec ⟨2, ![E, 1]⟩ w) (e : Fin E) :
    ∃ n : Fin N, Host.gather gd x idx (ix1 e) = x (ix1 n) :=
  ⟨gd.operandIdx (ix1 e) idx 0, congrArg x (eq_ix1 (gd.operandIdx (ix1 e) idx))⟩

/-- The dimension numbers of the gather of single entries of a vector `[N]` at a column `[E, 1]` of positions, result
    `[E]`: no offset axis, the vector's one axis collapsed and addressed by the position's one component, the index
    vector along axis 1, slices of one entry. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER OF ENTRIES OF A VECTOR READ AT `e`: the vector at position `srcRow idx e` (`idx[e, 0]` read signed and
    clamped into `[0, N - 1]`). On the vector's one axis the batching and the offset coordinates are `0` (it is a
    collapsed axis), and the start is the position clamped so that a slice of one entry fits. -/
theorem gather_vec_apply {N E w : ℕ} {α : Type} (hN : 0 < N) (gd : GatherDims ⟨1, ![N]⟩ ⟨2, ![E, 1]⟩ ⟨1, ![E]⟩)
    (wf : GatherDims.WF ⟨1, ![N]⟩ ⟨2, ![E, 1]⟩ ⟨1, ![E]⟩ [] [0] [] [0] [] 1 ![1]) (hgd : gd = vecDims N E wf)
    (x : (⟨1, ![N]⟩ : Shape).Idx → α) (idx : IVec ⟨2, ![E, 1]⟩ w) (e : Fin E) :
    Host.gather gd x idx (ix1 e) = x (ix1 (srcRow hN idx e)) := by
  subst hgd
  unfold Host.gather
  congr 1
  funext a
  obtain rfl : a = 0 := Subsingleton.elim _ _
  refine Fin.ext ?_
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.Lib.RowAggregate

end
-- ==== Proof.LibEdgeSum.lean ====
/-
  A general lemma about sums over a set of edges: a table may be multiplied by a weight matrix before or after its
  rows are summed along edges.

  For a finite set L of edges, per-edge rows xs e k, per-edge weights c e and a column w k of a weight matrix, all REAL
  numbers read as extended reals:
      Σ_k (0 + Σ_{e ∈ L} xs e k · c e) · w k  =  0 + Σ_{e ∈ L} (Σ_k xs e k · w k) · c e .
  Both sides are the double sum Σ_e Σ_k xs e k · c e · w k; moving w across the inner sum is distributivity, which holds
  at real entries and fails at the infinities — hence the three hypotheses. The leading zeros are the empty tables the
  two sums are accumulated into.
-/
import Idealize.ShloMosaic.PureOps.Ideal

open scoped BigOperators

namespace Cert.Lib.EdgeSum

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weights after the edge sum = weights before it, at real entries. -/
theorem sum_mul_swap {E K : Type} [Fintype K] (L : Finset E) (xs : E → K → EReal) (c : E → EReal) (w : K → EReal)
    (hx : ∀ e k, ∃ r : ℝ, xs e k = (r : EReal)) (hc : ∀ e, ∃ r : ℝ, c e = (r : EReal))
    (hw : ∀ k, ∃ r : ℝ, w k = (r : EReal)) :
    ∑ k, (0 + ∑ e ∈ L, xs e k * c e) * w k = 0 + ∑ e ∈ L, (∑ k, xs e k * w k) * c e := by
  classical
  choose xr hxr using hx
  choose cr hcr using hc
  choose wr hwr using hw
  simp only [hxr, hcr, hwr, zero_add, ← EReal.coe_mul, ← coe_sum]
  refine congrArg _ ?_
  simp only [Finset.sum_mul]
  rw [Finset.sum_comm]
  exact Finset.sum_congr rfl fun e _ => Finset.sum_congr rfl fun k _ => by ring

end Cert.Lib.EdgeSum
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«109106_j42442866819845_2_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.Bridge.lean ====
/-
  The bridge: the kernel's arrangement and the reference's are one function of the arguments.

  Write L(p) for the extended edges whose destination is node p, s(e) for the node edge e's source index names and
  c(e) for the edge's weight (all three are the same functions of the edge list in both programs). Aggregating a table
  h gives row p = 0 + Σ_{e ∈ L(p)} h(s(e), ·) · c(e).
  First layer. The reference aggregates the 128-wide product:  0 + Σ_{e ∈ L(p)} (Σ_k x(s(e),k)·W1(k,n)) · c(e) ; the kernel
  aggregates the 16-wide input and multiplies afterwards:  Σ_k (0 + Σ_{e ∈ L(p)} x(s(e),k)·c(e)) · W1(k,n). They are the same
  double sum; moving W1 across the edge sum is distributivity, which needs x, W1 and the weights REAL: x and W1 by the
  precondition, the weights always (`NormReal`). Adding the bias and clipping at zero is the same on both sides.
  Second layer. Both multiply the hidden table by W2 and then aggregate: the same arrangement, so equal hidden tables
  give equal results (the kernel keeps its product in a narrower format, which changes nothing over the extended reals).
-/
import proofs.«109106_j42442866819845_2_alg».proof.Proof.Terms
import proofs.«109106_j42442866819845_2_alg».proof.Proof.Dense
import proofs.«109106_j42442866819845_2_alg».proof.Proof.Reads
import proofs.«109106_j42442866819845_2_alg».proof.Proof.NormReal
import proofs.«109106_j42442866819845_2_alg».proof.Proof.LibRowAggregate
import proofs.«109106_j42442866819845_2_alg».proof.Proof.LibEdgeSum
import proofs.«109106_j42442866819845_2_alg».proof.Proof.LibHostPlainDot

noncomputable section

open scoped BigOperators

namespace Cert.KernelIdeal.Bridge

open Cert.KernelIdeal Cert.KernelIdeal.Terms Cert.KernelIdeal.Reads Cert.Lib.RowAggregate Cert.Lib.Finite
open Cert.KernelIdeal.Facts₀ Cert.KernelIdeal.Facts
open Idealize.ShloMosaic Idealize.ShloMosaic.ValueIdx

/-- The extended edges whose destination is node p. -/
abbrev into (ei : IVec S2x640000 32) (p : Fin 100000) : Finset (Fin 740000) := landing (column (dst ei)) p

/-- The node that edge e's source index names. -/
abbrev source (ei : IVec S2x640000 32) (e : Fin 740000) : Fin 100000 := srcRow (by decide) (wrapped (src ei)) e

/-- Row p, column n of an aggregated 128-wide table. -/
theorem aggregate128_apply (h : FVec Ideal S100000x128 .f32) (ei : IVec S2x640000 32) (p : Fin 100000) (n : Fin 128) :
    aggregate128 h ei (ix2 p n)
      = 0 + ∑ e ∈ into ei p, h (ix2 (source ei e) n) * Terms.norm (F := Ideal) ei (ix1 e) := by
  unfold aggregate128 scatterRows128 messages128
  refine (scatterAdd_row_apply scatter_S100000x128_S740000x1_S740000x128_1_0_0_1
    Facts₀.scatter_S100000x128_S740000x1_S740000x128_1_0_0_1_wf rfl _ _ _ p n).trans ?_
  rw [zeros_apply]
  refine congrArg _ (Finset.sum_congr rfl fun e _ => ?_)
  rw [mulf_apply, normCols128_apply]
  refine congrArg (fun z => z * Terms.norm (F := Ideal) ei (ix1 e)) ?_
  exact gather_row_apply' (by decide) gather_S100000x128_S740000x1_S740000x128_1_0_n_n_0_1_1128
    Facts₀.gather_S100000x128_S740000x1_S740000x128_1_0_n_n_0_1_1128_wf rfl h _ e n

/-- Row p, column k of an aggregated 16-wide table. -/
theorem aggregate16_apply (h : FVec Ideal S100000x16 .f32) (ei : IVec S2x640000 32) (p : Fin 100000) (k : Fin 16) :
    aggregate16 h ei (ix2 p k)
      = 0 + ∑ e ∈ into ei p, h (ix2 (source ei e) k) * Terms.norm (F := Ideal) ei (ix1 e) := by
  unfold aggregate16
  refine (scatterAdd_row_apply scatter_S100000x16_S740000x1_S740000x16_1_0_0_1
    Facts₀.scatter_S100000x16_S740000x1_S740000x16_1_0_0_1_wf rfl _ _ _ p k).trans ?_
  rw [zeros_apply]
  refine congrArg _ (Finset.sum_congr rfl fun e _ => ?_)
  rw [mulf_apply, normCols16_apply]
  refine congrArg (fun z => z * Terms.norm (F := Ideal) ei (ix1 e)) ?_
  exact gather_row_apply' (by decide) gather_S100000x16_S740000x1_S740000x16_1_0_n_n_0_1_116
    Facts₀.gather_S100000x16_S740000x1_S740000x16_1_0_n_n_0_1_116_wf rfl h _ e k

/-- FIRST LAYER: multiply-then-aggregate is aggregate-then-multiply, at real inputs. -/
theorem hidden_eq (x : FVec Ideal S100000x16 .f32) (w1 : FVec Ideal S16x128 .f32) (b1 : FVec Ideal S128 .f32)
    (ei : IVec S2x640000 32) (hx : ∀ i, IsReal (x i)) (hw : ∀ i, IsReal (w1 i)) :
    Cert.Gcn.denseRelu (aggregate16 x ei) w1 (shapeCast S1x128 b1 shapeCasts_S128_S1x128) = refHidden x w1 b1 ei := by
  funext i
  obtain ⟨p, n, rfl⟩ : ∃ (p : Fin 100000) (n : Fin 128), i = ix2 p n := ⟨i 0, i 1, eq_ix2 i⟩
  rw [Cert.Gcn.denseRelu_apply]
  unfold Cert.Gcn.denseReluAt refHidden refLayer
  rw [maximumf_apply, addf_apply, aggregate128_apply, biasRows_apply, biasRow_apply, zeros_apply, Ideal.ofBits_zero_f32]
  refine congrArg (fun z => max (z + b1 (ix1 n)) 0) ?_
  have hl : ∀ k : Fin 16, aggregate16 x ei (ix2 p k) * w1 (ix2 k n)
      = (0 + ∑ e ∈ into ei p, x (ix2 (source ei e) k) * Terms.norm (F := Ideal) ei (ix1 e)) * w1 (ix2 k n) :=
    fun k => by rw [aggregate16_apply]
  have hr : ∀ e : Fin 740000,
      Host.dotGeneral (F := Ideal) Cert.ReferenceIdeal.dot_S100000x16_S16x128_S100000x128_1_0_0_1_n_n none x w1 (ix2 (source ei e) n)
        = ∑ k : Fin 16, x (ix2 (source ei e) k) * w1 (ix2 k n) :=
    fun e => Cert.LibHostPlainDot.dotGeneral_plain_apply _ rfl none x w1 (source ei e) n
  rw [Finset.sum_congr rfl fun k _ => hl k]
  rw [Finset.sum_congr rfl fun e _ => congrArg (fun z => z * Terms.norm (F := Ideal) ei (ix1 e)) (hr e)]
  exact Cert.Lib.EdgeSum.sum_mul_swap (into ei p) (fun e k => x (ix2 (source ei e) k))
    (fun e => Terms.norm (F := Ideal) ei (ix1 e)) (fun k => w1 (ix2 k n))
    (fun e k => hx _) (fun e => NormReal.norm_real ei _) (fun k => hw _)

/-- The kernel's closing operations on a table equal, entry by entry, to a 128-wide table aggregate that table and add
    the bias: a change of float format is the identity over the extended reals. -/
theorem tail_eq (h2 : FVec Ideal S100000x128 .bf16) (h2' : FVec Ideal S100000x128 .f32) (hh : ∀ i, h2 i = h2' i)
    (b2 : FVec Ideal S128 .f32) (ei : IVec S2x640000 32) : kernelTail h2 b2 ei = refLayer h2' b2 ei := by
  have e : (h2 : S100000x128.Idx → EReal) = h2' := funext hh
  subst e
  rfl

/-- SECOND LAYER and the whole: the kernel's arrangement of the two layers is the reference's. -/
theorem out_eq (x : FVec Ideal S100000x16 .f32) (w1 : FVec Ideal S16x128 .f32) (b1 : FVec Ideal S128 .f32)
    (w2 : FVec Ideal S128x128 .f32) (b2 : FVec Ideal S128 .f32) (ei : IVec S2x640000 32)
    (hx : ∀ i, IsReal (x i)) (hw : ∀ i, IsReal (w1 i)) :
    kernelTail (Cert.Gcn.dense (φ := .bf16)
        (Cert.Gcn.denseRelu (aggregate16 x ei) w1 (shapeCast S1x128 b1 shapeCasts_S128_S1x128)) w2) b2 ei
      = refOut x w1 b1 w2 b2 ei := by
  rw [hidden_eq x w1 b1 ei hx hw]
  unfold refOut
  refine tail_eq _ _ (fun i => ?_) b2 ei
  obtain ⟨p, n, rfl⟩ : ∃ (p : Fin 100000) (n : Fin 128), i = ix2 p n := ⟨i 0, i 1, eq_ix2 i⟩
  rw [Cert.Gcn.dense_apply]
  exact (Cert.LibHostPlainDot.dotGeneral_plain_apply _ rfl none (refHidden x w1 b1 ei) w2 p n).symm

end Cert.KernelIdeal.Bridge

end
-- ==== Proof.FiniteInputs.lean ====
/- From the precondition "every float input is finite" to "every entry of an input is a real number".

   The precondition is printed as a function of the six arguments. For each float argument x it tests
   |x| < +∞ at every index — the absolute value of an extended real is max x (-x), and the f32 pattern
   0x7F800000 it is compared with denotes +∞ —, reduces the tests by `and` over all axes starting from the
   constant 1, and joins the five verdicts by `and`. The hypothesis says the result is 1. Read backwards:
   a conjunction of one-bit words that is 1 has both sides 1; a reduction by `and` into a result of a single
   index that is 1 met a 1 at every operand index; and an extended real x with max x (-x) < +∞ is neither
   +∞ nor -∞, so it is a real number. Nothing here evaluates a reduction: each one is only read back. -/
import proofs.«109106_j42442866819845_2_alg».proof.Proof.Gen.Pre_finite_inputs
import proofs.«109106_j42442866819845_2_alg».proof.Proof.LibFinite
import Idealize.ShloMosaic.Lib.ReduceAll
import Idealize.ShloMosaic.Lib.ValueIdx
import Idealize.ShloMosaic.PureOps.Ideal

noncomputable section

namespace Cert.Pre_finite_inputs.Finite

open Idealize.ShloMosaic Cert.Pre_finite_inputs Cert.Lib.Finite

/-- The scalar shape has one index. -/
instance : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The f32 pattern 0x7F800000 (sign 0, exponent all ones, fraction 0) denotes +∞. -/
theorem inf_pat : Ideal.ofBits .f32 0x7F800000#32 = (⊤ : EReal) := by simp [Ideal.ofBits, Ideal.ieee]

/-- An extended real whose absolute value max x (-x) lies below +∞ is a real number: at +∞ the maximum is +∞,
    and at -∞ its negation is. -/
theorem isReal_of_abs_lt_top (x : EReal) (h : max x (-x) < ⊤) : IsReal x := by
  induction x using EReal.rec with
  | bot => simp at h
  | coe r => exact ⟨r, rfl⟩
  | top => simp at h

/-- One element of a printed test |x| < +∞ that came out 1: the element is a real number. -/
theorem elem {s : Shape} (hb : S_.BroadcastsInDim s (![] : Fin 0 → Fin s.rank)) (x : FVec Ideal s .f32) (i : s.Idx)
    (h : cmpf .olt (Host.absf x) (broadcastInDim s ![] hb (constant S_ .f32 0x7F800000#32)) i = 1#1) :
    IsReal (x i) := by
  have h' : Ideal.cmp .olt (max (x i) (-(x i))) (Ideal.ofBits .f32 0x7F800000#32) = 1#1 := h
  rw [inf_pat] at h'
  unfold Ideal.cmp at h'
  exact isReal_of_abs_lt_top _ (of_decide_eq_true (ofBool_eq_one.1 h'))

/-- The precondition read back: every entry of every float argument is a real number. -/
theorem args_real [Cert.Pre_finite_inputs.Facts]
    (x0 : FVec Ideal S100000x16 .f32) (x1 : FVec Ideal S16x128 .f32) (x2 : FVec Ideal S128 .f32)
    (x3 : FVec Ideal S128x128 .f32) (x4 : FVec Ideal S128 .f32) (x5 : IVec S2x640000 32)
    (h : Cert.Pre_finite_inputs.fn (F := Ideal) x0 x1 x2 x3 x4 x5 = (fun _ => 1#1)) :
    (∀ i, Cert.Lib.Finite.IsReal (x0 i)) ∧ (∀ i, Cert.Lib.Finite.IsReal (x1 i))
      ∧ (∀ i, Cert.Lib.Finite.IsReal (x2 i)) ∧ (∀ i, Cert.Lib.Finite.IsReal (x3 i))
      ∧ (∀ i, Cert.Lib.Finite.IsReal (x4 i)) := by
  have e := congrFun h ValueIdx.ix0
  dsimp only [fn, fn_part1] at e
  simp only [andi, IntOp.andi_eq_one] at e
  obtain ⟨⟨⟨⟨h0, h1⟩, h2⟩, h3⟩, h4⟩ := e
  exact ⟨fun i => elem _ x0 i (Host.reduce_andi_all _ _ _ _ _ h0 i),
    fun i => elem _ x1 i (Host.reduce_andi_all _ _ _ _ _ h1 i),
    fun i => elem _ x2 i (Host.reduce_andi_all _ _ _ _ _ h2 i),
    fun i => elem _ x3 i (Host.reduce_andi_all _ _ _ _ _ h3 i),
    fun i => elem _ x4 i (Host.reduce_andi_all _ _ _ _ _ h4 i)⟩

end Cert.Pre_finite_inputs.Finite

end
-- ==== Proof.lean ====
/-
  A two-layer graph convolution over 100000 nodes and 640000 edges (plus one self-loop per node), with symmetric
  degree normalisation: the kernel against its reference, over the extended reals.

  Both programs compute  out = A (relu (A (x·W1) + b1) · W2) + b2 , where A sends a table of node rows to the table whose
  row p is the sum, over the extended edges e into p, of weight(e) · (row of the edge's source). The reference computes
  it in that order. The kernel computes the first layer as relu ((A x)·W1 + b1): it aggregates the 16-wide input first and
  multiplies by W1 afterwards, in 25 row blocks of 4000 inside a kernel region that also adds the bias and clips; its
  second product, by W2, is a second region of 25 row blocks, followed by the same aggregation and bias as the reference.
  The two first layers are the same double sum Σ_e Σ_k x(s(e),k)·W1(k,n)·weight(e); exchanging the sums moves W1 across the
  edge sum, which is distributivity: true at real entries, false at the infinities. So the proof uses the precondition
  (x and W1 finite) and the fact that every edge weight is real whatever the edge list holds. The second layers have one
  arrangement. The frames are the generated ones; the idealization rewrote nothing.
-/
import proofs.«109106_j42442866819845_2_alg».proof.Defs
import proofs.«109106_j42442866819845_2_alg».proof.Proof.Gen.Kernel
import proofs.«109106_j42442866819845_2_alg».proof.Proof.Gen.Kernel.Skeleton
import proofs.«109106_j42442866819845_2_alg».proof.Proof.Gen.Kernel.Launch
import proofs.«109106_j42442866819845_2_alg».proof.Proof.Gen.Kernel.Points
import proofs.«109106_j42442866819845_2_alg».proof.Proof.Gen.Kernel.Frame
import proofs.«109106_j42442866819845_2_alg».proof.Proof.Gen.KernelIdeal
import proofs.«109106_j42442866819845_2_alg».proof.Proof.Gen.KernelIdeal.Skeleton
import proofs.«109106_j42442866819845_2_alg».proof.Proof.Gen.KernelIdeal.Launch
import proofs.«109106_j42442866819845_2_alg».proof.Proof.Gen.KernelIdeal.Points
import proofs.«109106_j42442866819845_2_alg».proof.Proof.Gen.KernelIdeal.Frame
import proofs.«109106_j42442866819845_2_alg».proof.Proof.Gen.ReferenceIdeal
import proofs.«109106_j42442866819845_2_alg».proof.Proof.Gen.Pre_finite_inputs
import proofs.«109106_j42442866819845_2_alg».proof.Proof.KernelRun
import proofs.«109106_j42442866819845_2_alg».proof.Proof.KernelValue
import proofs.«109106_j42442866819845_2_alg».proof.Proof.RefRun
import proofs.«109106_j42442866819845_2_alg».proof.Proof.RefTerm
import proofs.«109106_j42442866819845_2_alg».proof.Proof.Bridge
import proofs.«109106_j42442866819845_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end, from memories agreeing on the arguments, with one result: the reference's composed term is the
    two-layer composition of its arguments, the kernel's last boundary holds its own arrangement of the same arguments,
    and the two are one function where x and W1 are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W6 m ρ c (Proc.devRef .tc Cert.KernelIdeal.main_v62),
    Cert.KernelIdeal.RunValue.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v90 m' c = Cert.KernelIdeal.Gen.W6 m ρ c (Proc.devRef .tc Cert.KernelIdeal.main_v62)
  obtain ⟨a0, a1, a2, a3, a4, a5⟩ := hagree c
  obtain ⟨hx, hw, -⟩ := Cert.Pre_finite_inputs.Finite.args_real _ _ _ _ _ _ (hpre c)
  rw [Cert.ReferenceIdeal.RefValue.res_eq, a0, a1, a2, a3, a4, a5, Cert.KernelIdeal.KernelValue.W6_result]
  exact (Cert.KernelIdeal.Bridge.out_eq _ _ _ _ _ _ hx hw).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
